-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x16 : Shape := ⟨2, ![4194304, 16]⟩
abbrev S2x4 : Shape := ⟨2, ![2, 4]⟩
abbrev S_ : Shape := ⟨0, ![]⟩
abbrev S4194304 : Shape := ⟨1, ![4194304]⟩

class Facts : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel
  bcast_S_S2x4 : S_.BroadcastsInDim S2x4 (![] : Fin 0 → Fin S2x4.rank)
  reducesTo_S2x4_S_d0_1 : S2x4.ReducesTo [0, 1] S_
  reducesTo_S4194304x16_S4194304_d1 : S4194304x16.ReducesTo [1] S4194304
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x16 .f32) (main_arg1 : FVec F S2x4 .f32) : IVec S_ 1 :=
  let main_v0 : FVec F S4194304x16 .f32 := Host.absf main_arg0
  let main_cst : FVec F S_ .f32 := constant S_ .f32 0x7F800000#32
  let main_v1 : FVec F S4194304x16 .f32 := broadcastInDim S4194304x16 ![] bcast_S_S4194304x16 main_cst
  let main_v2 : IVec S4194304x16 1 := cmpf .olt main_v0 main_v1
  let main_c : IVec S_ 1 := constantI S_ 1 1#1
  let main_v3 : IVec S_ 1 := (fun x v => Host.reduce IntOp.andi x v reducesTo_S4194304x16_S_d0_1 h_S_) main_v2 main_c
  let main_v4 : FVec F S2x4 .f32 := Host.absf main_arg1
  let main_cst_0 : FVec F S_ .f32 := constant S_ .f32 0x7F800000#32
  let main_v5 : FVec F S2x4 .f32 := broadcastInDim S2x4 ![] bcast_S_S2x4 main_cst_0
  let main_v6 : IVec S2x4 1 := cmpf .olt main_v4 main_v5
  let main_c_1 : IVec S_ 1 := constantI S_ 1 1#1
  let main_v7 : IVec S_ 1 := (fun x v => Host.reduce IntOp.andi x v reducesTo_S2x4_S_d0_1 h_S_) main_v6 main_c_1
  let main_v8 : IVec S_ 1 := andi main_v3 main_v7
  let main_v9 : FVec F S4194304x16 .f32 := mulf main_arg0 main_arg0
  let main_cst_2 : FVec F S_ .f32 := constant S_ .f32 0x00000000#32
  let main_v10 : FVec F S4194304 .f32 := (fun x v => Host.reduceAdd x v reducesTo_S4194304x16_S4194304_d1 h_S_) main_v9 main_cst_2
  let main_cst_3 : FVec F S_ .f32 := constant S_ .f32 0x00000000#32
  let main_v11 : FVec F S4194304 .f32 := broadcastInDim S4194304 ![] bcast_S_S4194304 main_cst_3
  let main_v12 : IVec S4194304 1 := cmpf .ogt main_v10 main_v11
  let main_c_4 : IVec S_ 1 := constantI S_ 1 1#1
  let main_v13 : IVec S_ 1 := (fun x v => Host.reduce IntOp.andi x v reducesTo_S4194304_S_d0 h_S_) main_v12 main_c_4
  let main_v14 : IVec S_ 1 := andi main_v8 main_v13
  main_v14
-- ==== Kernel.lean ====
abbrev S4194304x16 : Shape := ⟨2, ![4194304, 16]⟩
abbrev S2x4 : Shape := ⟨2, ![2, 4]⟩
abbrev S16x16 : Shape := ⟨2, ![16, 16]⟩
abbrev S16x4 : Shape := ⟨2, ![16, 4]⟩
abbrev S_ : Shape := ⟨0, ![]⟩
abbrev S1x1 : Shape := ⟨2, ![1, 1]⟩
abbrev S1 : Shape := ⟨1, ![1]⟩
abbrev S2 : Shape := ⟨1, ![2]⟩
abbrev S1x2 : Shape := ⟨2, ![1, 2]⟩
abbrev S2x2 : Shape := ⟨2, ![2, 2]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S4194304x4 : Shape := ⟨2, ![4194304, 4]⟩
abbrev S4096x16 : Shape := ⟨2, ![4096, 16]⟩
abbrev S4096x4 : Shape := ⟨2, ![4096, 4]⟩
abbrev S4096 : Shape := ⟨1, ![4096]⟩
abbrev S4096x1 : Shape := ⟨2, ![4096, 1]⟩

abbrev nBuf : Space → Nat
  | .hbm => 195
  | .vmem => 6
  | .smem => 0
  | _ => 0

abbrev hbmTy0_0 (i : Nat) : BufTy := match i % 128 with
  | 0 => ⟨S4194304x16, .f32⟩
  | 1 => ⟨S2x4, .f32⟩
  | 2 => ⟨S16x16, .f32⟩
  | 3 => ⟨S16x4, .f32⟩
  | 4 => ⟨S_, .f32⟩
  | 5 => ⟨S2x4, .f32⟩
  | 6 => ⟨S2x4, .f32⟩
  | 7 => ⟨S2x4, .f32⟩
  | 8 => ⟨S2x4, .f32⟩
  | 9 => ⟨S1x1, .f32⟩
  | 10 => ⟨S_, .f32⟩
  | 11 => ⟨S1x1, .f32⟩
  | 12 => ⟨S_, .f32⟩
  | 13 => ⟨S_, .f32⟩
  | 14 => ⟨S1, .f32⟩
  | 15 => ⟨S1, .f32⟩
  | 16 => ⟨S2, .f32⟩
  | 17 => ⟨S1x1, .f32⟩
  | 18 => ⟨S_, .f32⟩
  | 19 => ⟨S1x1, .f32⟩
  | 20 => ⟨S_, .f32⟩
  | 21 => ⟨S1, .f32⟩
  | 22 => ⟨S1, .f32⟩
  | 23 => ⟨S2, .f32⟩
  | 24 => ⟨S1x2, .f32⟩
  | 25 => ⟨S1x2, .f32⟩
  | 26 => ⟨S2x2, .f32⟩
  | 27 => ⟨S1x1, .f32⟩
  | 28 => ⟨S_, .f32⟩
  | 29 => ⟨S1x1, .f32⟩
  | 30 => ⟨S_, .f32⟩
  | 31 => ⟨S_, .f32⟩
  | 32 => ⟨S1, .f32⟩
  | 33 => ⟨S1, .f32⟩
  | 34 => ⟨S2, .f32⟩
  | 35 => ⟨S1x1, .f32⟩
  | 36 => ⟨S_, .f32⟩
  | 37 => ⟨S1x1, .f32⟩
  | 38 => ⟨S_, .f32⟩
  | 39 => ⟨S1, .f32⟩
  | 40 => ⟨S1, .f32⟩
  | 41 => ⟨S2, .f32⟩
  | 42 => ⟨S1x2, .f32⟩
  | 43 => ⟨S1x2, .f32⟩
  | 44 => ⟨S2x2, .f32⟩
  | 45 => ⟨S1x1, .f32⟩
  | 46 => ⟨S_, .f32⟩
  | 47 => ⟨S1x1, .f32⟩
  | 48 => ⟨S_, .f32⟩
  | 49 => ⟨S_, .f32⟩
  | 50 => ⟨S1, .f32⟩
  | 51 => ⟨S1, .f32⟩
  | 52 => ⟨S2, .f32⟩
  | 53 => ⟨S1x1, .f32⟩
  | 54 => ⟨S_, .f32⟩
  | 55 => ⟨S1x1, .f32⟩
  | 56 => ⟨S_, .f32⟩
  | 57 => ⟨S1, .f32⟩
  | 58 => ⟨S1, .f32⟩
  | 59 => ⟨S2, .f32⟩
  | 60 => ⟨S1x2, .f32⟩
  | 61 => ⟨S1x2, .f32⟩
  | 62 => ⟨S2x2, .f32⟩
  | 63 => ⟨S1x1, .f32⟩
  | 64 => ⟨S_, .f32⟩
  | 65 => ⟨S1x1, .f32⟩
  | 66 => ⟨S_, .f32⟩
  | 67 => ⟨S_, .f32⟩
  | 68 => ⟨S1, .f32⟩
  | 69 => ⟨S1, .f32⟩
  | 70 => ⟨S2, .f32⟩
  | 71 => ⟨S1x1, .f32⟩
  | 72 => ⟨S_, .f32⟩
  | 73 => ⟨S1x1, .f32⟩
  | 74 => ⟨S_, .f32⟩
  | 75 => ⟨S1, .f32⟩
  | 76 => ⟨S1, .f32⟩
  | 77 => ⟨S2, .f32⟩
  | 78 => ⟨S1x2, .f32⟩
  | 79 => ⟨S1x2, .f32⟩
  | 80 => ⟨S2x2, .f32⟩
  | 81 => ⟨S2x1x2x1, .f32⟩
  | 82 => ⟨S1x2x1x2, .f32⟩
  | 83 => ⟨S2x2x2x2, .f32⟩
  | 84 => ⟨S2x2x2x2, .f32⟩
  | 85 => ⟨S2x2x2x2, .f32⟩
  | 86 => ⟨S4x4, .f32⟩
  | 87 => ⟨S4x1x4x1, .f32⟩
  | 88 => ⟨S1x2x1x2, .f32⟩
  | 89 => ⟨S4x2x4x2, .f32⟩
  | 90 => ⟨S4x2x4x2, .f32⟩
  | 91 => ⟨S4x2x4x2, .f32⟩
  | 92 => ⟨S8x8, .f32⟩
  | 93 => ⟨S8x1x8x1, .f32⟩
  | 94 => ⟨S1x2x1x2, .f32⟩
  | 95 => ⟨S8x2x8x2, .f32⟩
  | 96 => ⟨S8x2x8x2, .f32⟩
  | 97 => ⟨S8x2x8x2, .f32⟩
  | 98 => ⟨S16x16, .f32⟩
  | 99 => ⟨S16x16, .f32⟩
  | 100 => ⟨S1x1, .f32⟩
  | 101 => ⟨S_, .f32⟩
  | 102 => ⟨S1x1, .f32⟩
  | 103 => ⟨S_, .f32⟩
  | 104 => ⟨S_, .f32⟩
  | 105 => ⟨S1, .f32⟩
  | 106 => ⟨S1, .f32⟩
  | 107 => ⟨S2, .f32⟩
  | 108 => ⟨S1x1, .f32⟩
  | 109 => ⟨S_, .f32⟩
  | 110 => ⟨S1x1, .f32⟩
  | 111 => ⟨S_, .f32⟩
  | 112 => ⟨S1, .f32⟩
  | 113 => ⟨S1, .f32⟩
  | 114 => ⟨S2, .f32⟩
  | 115 => ⟨S1x2, .f32⟩
  | 116 => ⟨S1x2, .f32⟩
  | 117 => ⟨S2x2, .f32⟩
  | 118 => ⟨S1x1, .f32⟩
  | 119 => ⟨S_, .f32⟩
  | 120 => ⟨S1x1, .f32⟩
  | 121 => ⟨S_, .f32⟩
  | 122 => ⟨S_, .f32⟩
  | 123 => ⟨S1, .f32⟩
  | 124 => ⟨S1, .f32⟩
  | 125 => ⟨S2, .f32⟩
  | 126 => ⟨S1x1, .f32⟩
  | 127 => ⟨S_, .f32⟩
  | _ => ⟨S4194304x16, .f32⟩

abbrev hbmTy0_1 (i : Nat) : BufTy := match i % 128 with
  | 0 => ⟨S1x1, .f32⟩
  | 1 => ⟨S_, .f32⟩
  | 2 => ⟨S1, .f32⟩
  | 3 => ⟨S1, .f32⟩
  | 4 => ⟨S2, .f32⟩
  | 5 => ⟨S1x2, .f32⟩
  | 6 => ⟨S1x2, .f32⟩
  | 7 => ⟨S2x2, .f32⟩
  | 8 => ⟨S1x1, .f32⟩
  | 9 => ⟨S_, .f32⟩
  | 10 => ⟨S1x1, .f32⟩
  | 11 => ⟨S_, .f32⟩
  | 12 => ⟨S_, .f32⟩
  | 13 => ⟨S1, .f32⟩
  | 14 => ⟨S1, .f32⟩
  | 15 => ⟨S2, .f32⟩
  | 16 => ⟨S1x1, .f32⟩
  | 17 => ⟨S_, .f32⟩
  | 18 => ⟨S1x1, .f32⟩
  | 19 => ⟨S_, .f32⟩
  | 20 => ⟨S1, .f32⟩
  | 21 => ⟨S1, .f32⟩
  | 22 => ⟨S2, .f32⟩
  | 23 => ⟨S1x2, .f32⟩
  | 24 => ⟨S1x2, .f32⟩
  | 25 => ⟨S2x2, .f32⟩
  | 26 => ⟨S1x1, .f32⟩
  | 27 => ⟨S_, .f32⟩
  | 28 => ⟨S1x1, .f32⟩
  | 29 => ⟨S_, .f32⟩
  | 30 => ⟨S_, .f32⟩
  | 31 => ⟨S1, .f32⟩
  | 32 => ⟨S1, .f32⟩
  | 33 => ⟨S2, .f32⟩
  | 34 => ⟨S1x1, .f32⟩
  | 35 => ⟨S_, .f32⟩
  | 36 => ⟨S1x1, .f32⟩
  | 37 => ⟨S_, .f32⟩
  | 38 => ⟨S1, .f32⟩
  | 39 => ⟨S1, .f32⟩
  | 40 => ⟨S2, .f32⟩
  | 41 => ⟨S1x2, .f32⟩
  | 42 => ⟨S1x2, .f32⟩
  | 43 => ⟨S2x2, .f32⟩
  | 44 => ⟨S2x1x2x1, .f32⟩
  | 45 => ⟨S1x2x1x2, .f32⟩
  | 46 => ⟨S2x2x2x2, .f32⟩
  | 47 => ⟨S2x2x2x2, .f32⟩
  | 48 => ⟨S2x2x2x2, .f32⟩
  | 49 => ⟨S4x4, .f32⟩
  | 50 => ⟨S4x1x4x1, .f32⟩
  | 51 => ⟨S1x2x1x2, .f32⟩
  | 52 => ⟨S4x2x4x2, .f32⟩
  | 53 => ⟨S4x2x4x2, .f32⟩
  | 54 => ⟨S4x2x4x2, .f32⟩
  | 55 => ⟨S8x8, .f32⟩
  | 56 => ⟨S8x1x8x1, .f32⟩
  | 57 => ⟨S1x2x1x2, .f32⟩
  | 58 => ⟨S8x2x8x2, .f32⟩
  | 59 => ⟨S8x2x8x2, .f32⟩
  | 60 => ⟨S8x2x8x2, .f32⟩
  | 61 => ⟨S16x16, .f32⟩
  | 62 => ⟨S16x16, .f32⟩
  | 63 => ⟨S16x16, .f32⟩
  | 64 => ⟨S16x16, .f32⟩
  | 65 => ⟨S16x16, .f32⟩
  | 66 => ⟨S4194304x4, .f32⟩
  | _ => ⟨S4194304x16, .f32⟩

abbrev hbmTy (i : Nat) : BufTy := match i / 128 with
  | 0 => hbmTy0_0 i
  | 1 => hbmTy0_1 i
  | _ => ⟨S4194304x16, .f32⟩

abbrev bufTy : (tb : Table) → Fin (tcTables nBuf tb) → BufTy
  | .hbm, ⟨i, _⟩ => hbmTy i
  | .local _ .vmem, ⟨0, _⟩ => ⟨S4096x16, .f32⟩
  | .local _ .vmem, ⟨1, _⟩ => ⟨S4096x16, .f32⟩
  | .local _ .vmem, ⟨2, _⟩ => ⟨S16x16, .f32⟩
  | .local _ .vmem, ⟨3, _⟩ => ⟨S16x4, .f32⟩
  | .local _ .vmem, ⟨4, _⟩ => ⟨S4096x4, .f32⟩
  | .local _ .vmem, ⟨5, _⟩ => ⟨S4096x4, .f32⟩
  | _, _ => ⟨S4194304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_v76 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v77 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_call3_v0 : Ref sig .tc := ⟨.hbm, 172, rfl⟩
abbrev main_call3_v1 : Ref sig .tc := ⟨.hbm, 173, rfl⟩
abbrev main_call3_v2 : Ref sig .tc := ⟨.hbm, 174, rfl⟩
abbrev main_call3_v3 : Ref sig .tc := ⟨.hbm, 175, rfl⟩
abbrev main_call3_v4 : Ref sig .tc := ⟨.hbm, 176, rfl⟩
abbrev main_v152 : Ref sig .tc := ⟨.hbm, 177, rfl⟩
abbrev main_call4_v0 : Ref sig .tc := ⟨.hbm, 178, rfl⟩
abbrev main_call4_v1 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_v153 : Ref sig .tc := ⟨.hbm, 183, rfl⟩
abbrev main_call5_v0 : Ref sig .tc := ⟨.hbm, 184, rfl⟩
abbrev main_call5_v1 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2x4 : S_.BroadcastsInDim S2x4 (![] : Fin 0 → Fin S2x4.rank)
  slices_S2x4_S1x1_0_0 : S2x4.Slices ![0, 0] S1x1
  shapeCasts_S1x1_S_ : S1x1.ShapeCasts S_
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  concatenates_S1x2_S1x2_S2x2_d0 : Shape.Concatenates [S1x2, S1x2] S2x2 0
  slices_S2x4_S1x1_0_1 : S2x4.Slices ![0, 1] S1x1
  slices_S2x4_S1x1_0_2 : S2x4.Slices ![0, 2] S1x1
  slices_S2x4_S1x1_0_3 : S2x4.Slices ![0, 3] S1x1
  bcast_S2x2_S2x1x2x1_0_2 : S2x2.BroadcastsInDim S2x1x2x1 (![0, 2] : Fin 2 → Fin S2x1x2x1.rank)
  bcast_S2x2_S1x2x1x2_1_3 : S2x2.BroadcastsInDim S1x2x1x2 (![1, 3] : Fin 2 → Fin S1x2x1x2.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  bcast_S4x4_S4x1x4x1_0_2 : S4x4.BroadcastsInDim S4x1x4x1 (![0, 2] : Fin 2 → Fin S4x1x4x1.rank)
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S8x8_S8x1x8x1_0_2 : S8x8.BroadcastsInDim S8x1x8x1 (![0, 2] : Fin 2 → Fin S8x1x8x1.rank)
  bcast_S8x1x8x1_S8x2x8x2_0_1_2_3 : S8x1x8x1.BroadcastsInDim S8x2x8x2 (![0, 1, 2, 3] : Fin 4 → Fin S8x2x8x2.rank)
  bcast_S1x2x1x2_S8x2x8x2_0_1_2_3 : S1x2x1x2.BroadcastsInDim S8x2x8x2 (![0, 1, 2, 3] : Fin 4 → Fin S8x2x8x2.rank)
  shapeCasts_S8x2x8x2_S16x16 : S8x2x8x2.ShapeCasts S16x16
  slices_S2x4_S1x1_1_0 : S2x4.Slices ![1, 0] S1x1
  slices_S2x4_S1x1_1_1 : S2x4.Slices ![1, 1] S1x1
  slices_S2x4_S1x1_1_2 : S2x4.Slices ![1, 2] S1x1
  slices_S2x4_S1x1_1_3 : S2x4.Slices ![1, 3] S1x1
  transposes_S16x16_S16x16_1_0 : S16x16.Transposes [1, 0] S16x16
  inb_S4096x16_S4096x16_0_0 : ∀ a, (![0, 0] : Fin 2 → Nat) a + S4096x16.size a ≤ S4096x16.size a
  h_S4096x16 : 0 < S4096x16.numel
  reduces_S4096x16_S4096 : S4096x16.Reduces [1] S4096
  shapeCasts_S4096_S4096x1 : S4096.ShapeCasts S4096x1
  broadcasts_S4096x1_S4096x16 : S4096x1.Broadcasts S4096x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  bitsLt_bf16_f32 : FTy.bits .bf16 < FTy.bits .f32
  inb_S16x4_S16x4_0_0 : ∀ a, (![0, 0] : Fin 2 → Nat) a + S16x4.size a ≤ S16x4.size a
  h_S16x4 : 0 < S16x4.numel
  inb_S4096x4_S4096x4_0_0 : ∀ a, (![0, 0] : Fin 2 → Nat) a + S4096x4.size a ≤ S4096x4.size a
  h_S4096x4 : 0 < S4096x4.numel
  dot_S16x16_S16x16_S16x16_1_0_0_1_n_n_wf : DotDims.WF S16x16 S16x16 S16x16 [1] [0] [0] [1] [] []
  dot_S4096x16_S16x16_S4096x16_1_0_0_1_n_n_wf : DotDims.WF S4096x16 S16x16 S4096x16 [1] [0] [0] [1] [] []
  dot_S4096x16_S16x4_S4096x4_1_0_0_1_n_n_wf : DotDims.WF S4096x16 S16x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S4194304x16.size a
  hwx0_0 : ∀ i : grid0.Coords, EltTy.bits .f32 = 32 ∨ (Rect.block (s := S4194304x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4.size a ≤ S16x4.size a
  hwx0_2 : ∀ i : grid0.Coords, EltTy.bits .f32 = 32 ∨ (Rect.block (s := S16x4) S16x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x4.size a ≤ S4194304x4.size a
  hwx0_3 : ∀ i : grid0.Coords, EltTy.bits .f32 = 32 ∨ (Rect.block (s := S4194304x4) S4096x4.size (cc0_transform_3 i) (hinb0_3 i)).WholeWords (EltTy.packing .f32)

variable [Facts₀]

def dot_S16x16_S16x16_S16x16_1_0_0_1_n_n : DotDims S16x16 S16x16 S16x16 where
  lhsContracting := [1]
  rhsContracting := [0]
  lhsNonContracting := [0]
  rhsNonContracting := [1]
  lhsBatch := []
  rhsBatch := []
  wf := dot_S16x16_S16x16_S16x16_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x16_S16x4_S4096x4_1_0_0_1_n_n : DotDims S4096x16 S16x4 S4096x4 where
  lhsContracting := [1]
  rhsContracting := [0]
  lhsNonContracting := [0]
  rhsNonContracting := [1]
  lhsBatch := []
  rhsBatch := []
  wf := dot_S4096x16_S16x4_S4096x4_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v158) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S16x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v159) S4096x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x16 : Shape := ⟨2, ![4194304, 16]⟩
abbrev S2x4 : Shape := ⟨2, ![2, 4]⟩
abbrev S16x16 : Shape := ⟨2, ![16, 16]⟩
abbrev S16x4 : Shape := ⟨2, ![16, 4]⟩
abbrev S_ : Shape := ⟨0, ![]⟩
abbrev S4194304 : Shape := ⟨1, ![4194304]⟩
abbrev S4194304x1 : Shape := ⟨2, ![4194304, 1]⟩
abbrev S1x1 : Shape := ⟨2, ![1, 1]⟩
abbrev S1 : Shape := ⟨1, ![1]⟩
abbrev S2 : Shape := ⟨1, ![2]⟩
abbrev S1x2 : Shape := ⟨2, ![1, 2]⟩
abbrev S2x2 : Shape := ⟨2, ![2, 2]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S4194304x4 : Shape := ⟨2, ![4194304, 4]⟩

abbrev nBuf : Space → Nat
  | .hbm => 204
  | .vmem => 0
  | .smem => 0
  | _ => 0

abbrev hbmTy0_0 (i : Nat) : BufTy := match i % 128 with
  | 0 => ⟨S4194304x16, .f32⟩
  | 1 => ⟨S2x4, .f32⟩
  | 2 => ⟨S16x16, .f32⟩
  | 3 => ⟨S16x4, .f32⟩
  | 4 => ⟨S4194304x16, .f32⟩
  | 5 => ⟨S_, .f32⟩
  | 6 => ⟨S4194304, .f32⟩
  | 7 => ⟨S4194304x1, .f32⟩
  | 8 => ⟨S4194304x1, .f32⟩
  | 9 => ⟨S4194304x16, .f32⟩
  | 10 => ⟨S4194304x16, .f32⟩
  | 11 => ⟨S_, .f32⟩
  | 12 => ⟨S2x4, .f32⟩
  | 13 => ⟨S2x4, .f32⟩
  | 14 => ⟨S2x4, .f32⟩
  | 15 => ⟨S2x4, .f32⟩
  | 16 => ⟨S1x1, .f32⟩
  | 17 => ⟨S_, .f32⟩
  | 18 => ⟨S1x1, .f32⟩
  | 19 => ⟨S_, .f32⟩
  | 20 => ⟨S_, .f32⟩
  | 21 => ⟨S1, .f32⟩
  | 22 => ⟨S1, .f32⟩
  | 23 => ⟨S2, .f32⟩
  | 24 => ⟨S1x1, .f32⟩
  | 25 => ⟨S_, .f32⟩
  | 26 => ⟨S1x1, .f32⟩
  | 27 => ⟨S_, .f32⟩
  | 28 => ⟨S1, .f32⟩
  | 29 => ⟨S1, .f32⟩
  | 30 => ⟨S2, .f32⟩
  | 31 => ⟨S1x2, .f32⟩
  | 32 => ⟨S1x2, .f32⟩
  | 33 => ⟨S2x2, .f32⟩
  | 34 => ⟨S1x1, .f32⟩
  | 35 => ⟨S_, .f32⟩
  | 36 => ⟨S1x1, .f32⟩
  | 37 => ⟨S_, .f32⟩
  | 38 => ⟨S_, .f32⟩
  | 39 => ⟨S1, .f32⟩
  | 40 => ⟨S1, .f32⟩
  | 41 => ⟨S2, .f32⟩
  | 42 => ⟨S1x1, .f32⟩
  | 43 => ⟨S_, .f32⟩
  | 44 => ⟨S1x1, .f32⟩
  | 45 => ⟨S_, .f32⟩
  | 46 => ⟨S1, .f32⟩
  | 47 => ⟨S1, .f32⟩
  | 48 => ⟨S2, .f32⟩
  | 49 => ⟨S1x2, .f32⟩
  | 50 => ⟨S1x2, .f32⟩
  | 51 => ⟨S2x2, .f32⟩
  | 52 => ⟨S1x1, .f32⟩
  | 53 => ⟨S_, .f32⟩
  | 54 => ⟨S1x1, .f32⟩
  | 55 => ⟨S_, .f32⟩
  | 56 => ⟨S_, .f32⟩
  | 57 => ⟨S1, .f32⟩
  | 58 => ⟨S1, .f32⟩
  | 59 => ⟨S2, .f32⟩
  | 60 => ⟨S1x1, .f32⟩
  | 61 => ⟨S_, .f32⟩
  | 62 => ⟨S1x1, .f32⟩
  | 63 => ⟨S_, .f32⟩
  | 64 => ⟨S1, .f32⟩
  | 65 => ⟨S1, .f32⟩
  | 66 => ⟨S2, .f32⟩
  | 67 => ⟨S1x2, .f32⟩
  | 68 => ⟨S1x2, .f32⟩
  | 69 => ⟨S2x2, .f32⟩
  | 70 => ⟨S1x1, .f32⟩
  | 71 => ⟨S_, .f32⟩
  | 72 => ⟨S1x1, .f32⟩
  | 73 => ⟨S_, .f32⟩
  | 74 => ⟨S_, .f32⟩
  | 75 => ⟨S1, .f32⟩
  | 76 => ⟨S1, .f32⟩
  | 77 => ⟨S2, .f32⟩
  | 78 => ⟨S1x1, .f32⟩
  | 79 => ⟨S_, .f32⟩
  | 80 => ⟨S1x1, .f32⟩
  | 81 => ⟨S_, .f32⟩
  | 82 => ⟨S1, .f32⟩
  | 83 => ⟨S1, .f32⟩
  | 84 => ⟨S2, .f32⟩
  | 85 => ⟨S1x2, .f32⟩
  | 86 => ⟨S1x2, .f32⟩
  | 87 => ⟨S2x2, .f32⟩
  | 88 => ⟨S2x1x2x1, .f32⟩
  | 89 => ⟨S1x2x1x2, .f32⟩
  | 90 => ⟨S2x2x2x2, .f32⟩
  | 91 => ⟨S2x2x2x2, .f32⟩
  | 92 => ⟨S2x2x2x2, .f32⟩
  | 93 => ⟨S4x4, .f32⟩
  | 94 => ⟨S4x1x4x1, .f32⟩
  | 95 => ⟨S1x2x1x2, .f32⟩
  | 96 => ⟨S4x2x4x2, .f32⟩
  | 97 => ⟨S4x2x4x2, .f32⟩
  | 98 => ⟨S4x2x4x2, .f32⟩
  | 99 => ⟨S8x8, .f32⟩
  | 100 => ⟨S8x1x8x1, .f32⟩
  | 101 => ⟨S1x2x1x2, .f32⟩
  | 102 => ⟨S8x2x8x2, .f32⟩
  | 103 => ⟨S8x2x8x2, .f32⟩
  | 104 => ⟨S8x2x8x2, .f32⟩
  | 105 => ⟨S16x16, .f32⟩
  | 106 => ⟨S16x16, .f32⟩
  | 107 => ⟨S16x16, .f32⟩
  | 108 => ⟨S4194304x16, .f32⟩
  | 109 => ⟨S1x1, .f32⟩
  | 110 => ⟨S_, .f32⟩
  | 111 => ⟨S1x1, .f32⟩
  | 112 => ⟨S_, .f32⟩
  | 113 => ⟨S_, .f32⟩
  | 114 => ⟨S1, .f32⟩
  | 115 => ⟨S1, .f32⟩
  | 116 => ⟨S2, .f32⟩
  | 117 => ⟨S1x1, .f32⟩
  | 118 => ⟨S_, .f32⟩
  | 119 => ⟨S1x1, .f32⟩
  | 120 => ⟨S_, .f32⟩
  | 121 => ⟨S1, .f32⟩
  | 122 => ⟨S1, .f32⟩
  | 123 => ⟨S2, .f32⟩
  | 124 => ⟨S1x2, .f32⟩
  | 125 => ⟨S1x2, .f32⟩
  | 126 => ⟨S2x2, .f32⟩
  | 127 => ⟨S1x1, .f32⟩
  | _ => ⟨S4194304x16, .f32⟩

abbrev hbmTy0_1 (i : Nat) : BufTy := match i % 128 with
  | 0 => ⟨S_, .f32⟩
  | 1 => ⟨S1x1, .f32⟩
  | 2 => ⟨S_, .f32⟩
  | 3 => ⟨S_, .f32⟩
  | 4 => ⟨S1, .f32⟩
  | 5 => ⟨S1, .f32⟩
  | 6 => ⟨S2, .f32⟩
  | 7 => ⟨S1x1, .f32⟩
  | 8 => ⟨S_, .f32⟩
  | 9 => ⟨S1x1, .f32⟩
  | 10 => ⟨S_, .f32⟩
  | 11 => ⟨S1, .f32⟩
  | 12 => ⟨S1, .f32⟩
  | 13 => ⟨S2, .f32⟩
  | 14 => ⟨S1x2, .f32⟩
  | 15 => ⟨S1x2, .f32⟩
  | 16 => ⟨S2x2, .f32⟩
  | 17 => ⟨S1x1, .f32⟩
  | 18 => ⟨S_, .f32⟩
  | 19 => ⟨S1x1, .f32⟩
  | 20 => ⟨S_, .f32⟩
  | 21 => ⟨S_, .f32⟩
  | 22 => ⟨S1, .f32⟩
  | 23 => ⟨S1, .f32⟩
  | 24 => ⟨S2, .f32⟩
  | 25 => ⟨S1x1, .f32⟩
  | 26 => ⟨S_, .f32⟩
  | 27 => ⟨S1x1, .f32⟩
  | 28 => ⟨S_, .f32⟩
  | 29 => ⟨S1, .f32⟩
  | 30 => ⟨S1, .f32⟩
  | 31 => ⟨S2, .f32⟩
  | 32 => ⟨S1x2, .f32⟩
  | 33 => ⟨S1x2, .f32⟩
  | 34 => ⟨S2x2, .f32⟩
  | 35 => ⟨S1x1, .f32⟩
  | 36 => ⟨S_, .f32⟩
  | 37 => ⟨S1x1, .f32⟩
  | 38 => ⟨S_, .f32⟩
  | 39 => ⟨S_, .f32⟩
  | 40 => ⟨S1, .f32⟩
  | 41 => ⟨S1, .f32⟩
  | 42 => ⟨S2, .f32⟩
  | 43 => ⟨S1x1, .f32⟩
  | 44 => ⟨S_, .f32⟩
  | 45 => ⟨S1x1, .f32⟩
  | 46 => ⟨S_, .f32⟩
  | 47 => ⟨S1, .f32⟩
  | 48 => ⟨S1, .f32⟩
  | 49 => ⟨S2, .f32⟩
  | 50 => ⟨S1x2, .f32⟩
  | 51 => ⟨S1x2, .f32⟩
  | 52 => ⟨S2x2, .f32⟩
  | 53 => ⟨S2x1x2x1, .f32⟩
  | 54 => ⟨S1x2x1x2, .f32⟩
  | 55 => ⟨S2x2x2x2, .f32⟩
  | 56 => ⟨S2x2x2x2, .f32⟩
  | 57 => ⟨S2x2x2x2, .f32⟩
  | 58 => ⟨S4x4, .f32⟩
  | 59 => ⟨S4x1x4x1, .f32⟩
  | 60 => ⟨S1x2x1x2, .f32⟩
  | 61 => ⟨S4x2x4x2, .f32⟩
  | 62 => ⟨S4x2x4x2, .f32⟩
  | 63 => ⟨S4x2x4x2, .f32⟩
  | 64 => ⟨S8x8, .f32⟩
  | 65 => ⟨S8x1x8x1, .f32⟩
  | 66 => ⟨S1x2x1x2, .f32⟩
  | 67 => ⟨S8x2x8x2, .f32⟩
  | 68 => ⟨S8x2x8x2, .f32⟩
  | 69 => ⟨S8x2x8x2, .f32⟩
  | 70 => ⟨S16x16, .f32⟩
  | 71 => ⟨S16x16, .f32⟩
  | 72 => ⟨S16x16, .f32⟩
  | 73 => ⟨S4194304x16, .f32⟩
  | 74 => ⟨S4194304x16, .f32⟩
  | 75 => ⟨S4194304x4, .f32⟩
  | _ => ⟨S4194304x16, .f32⟩

abbrev hbmTy (i : Nat) : BufTy := match i / 128 with
  | 0 => hbmTy0_0 i
  | 1 => hbmTy0_1 i
  | _ => ⟨S4194304x16, .f32⟩

abbrev bufTy : (tb : Table) → Fin (tcTables nBuf tb) → BufTy
  | .hbm, ⟨i, _⟩ => hbmTy i
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v79 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v80 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_v157 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_call5_v3 : Ref sig .tc := ⟨.hbm, 190, rfl⟩
abbrev main_call5_v4 : Ref sig .tc := ⟨.hbm, 191, rfl⟩
abbrev main_v158 : Ref sig .tc := ⟨.hbm, 192, rfl⟩
abbrev main_call6_v0 : Ref sig .tc := ⟨.hbm, 193, rfl⟩
abbrev main_call6_v1 : Ref sig .tc := ⟨.hbm, 194, rfl⟩
abbrev main_call6_v2 : Ref sig .tc := ⟨.hbm, 195, rfl⟩
abbrev main_call6_v3 : Ref sig .tc := ⟨.hbm, 196, rfl⟩
abbrev main_call6_v4 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩

abbrev nD : Nat := 1
abbrev τ : Topo := Topo.v7x

variable {F : FTy → Type} [FloatOps F]

class Facts₀ : Prop where
  reducesTo_S4194304x16_S4194304_d1 : S4194304x16.ReducesTo [1] S4194304
  h_S_ : 0 < S_.numel
  bcast_S4194304_S4194304x1_0 : S4194304.BroadcastsInDim S4194304x1 (![0] : Fin 1 → Fin S4194304x1.rank)
  bcast_S4194304x1_S4194304x16_0_1 : S4194304x1.BroadcastsInDim S4194304x16 (![0, 1] : Fin 2 → Fin S4194304x16.rank)
  bcast_S_S2x4 : S_.BroadcastsInDim S2x4 (![] : Fin 0 → Fin S2x4.rank)
  slices_S2x4_S1x1_0_0 : S2x4.Slices ![0, 0] S1x1
  shapeCasts_S1x1_S_ : S1x1.ShapeCasts S_
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  concatenates_S1x2_S1x2_S2x2_d0 : Shape.Concatenates [S1x2, S1x2] S2x2 0
  slices_S2x4_S1x1_0_1 : S2x4.Slices ![0, 1] S1x1
  slices_S2x4_S1x1_0_2 : S2x4.Slices ![0, 2] S1x1
  slices_S2x4_S1x1_0_3 : S2x4.Slices ![0, 3] S1x1
  bcast_S2x2_S2x1x2x1_0_2 : S2x2.BroadcastsInDim S2x1x2x1 (![0, 2] : Fin 2 → Fin S2x1x2x1.rank)
  bcast_S2x2_S1x2x1x2_1_3 : S2x2.BroadcastsInDim S1x2x1x2 (![1, 3] : Fin 2 → Fin S1x2x1x2.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  bcast_S4x4_S4x1x4x1_0_2 : S4x4.BroadcastsInDim S4x1x4x1 (![0, 2] : Fin 2 → Fin S4x1x4x1.rank)
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S8x8_S8x1x8x1_0_2 : S8x8.BroadcastsInDim S8x1x8x1 (![0, 2] : Fin 2 → Fin S8x1x8x1.rank)
  bcast_S8x1x8x1_S8x2x8x2_0_1_2_3 : S8x1x8x1.BroadcastsInDim S8x2x8x2 (![0, 1, 2, 3] : Fin 4 → Fin S8x2x8x2.rank)
  bcast_S1x2x1x2_S8x2x8x2_0_1_2_3 : S1x2x1x2.BroadcastsInDim S8x2x8x2 (![0, 1, 2, 3] : Fin 4 → Fin S8x2x8x2.rank)
  shapeCasts_S8x2x8x2_S16x16 : S8x2x8x2.ShapeCasts S16x16
  transposes_S16x16_S16x16_1_0 : S16x16.Transposes [1, 0] S16x16
  slices_S2x4_S1x1_1_0 : S2x4.Slices ![1, 0] S1x1
  slices_S2x4_S1x1_1_1 : S2x4.Slices ![1, 1] S1x1
  slices_S2x4_S1x1_1_2 : S2x4.Slices ![1, 2] S1x1
  slices_S2x4_S1x1_1_3 : S2x4.Slices ![1, 3] S1x1
  dot_S16x16_S16x16_S16x16_1_0_0_1_n_n_wf : DotDims.WF S16x16 S16x16 S16x16 [1] [0] [0] [1] [] []
  dot_S4194304x16_S16x16_S4194304x16_1_0_0_1_n_n_wf : DotDims.WF S4194304x16 S16x16 S4194304x16 [1] [0] [0] [1] [] []
  dot_S4194304x16_S16x4_S4194304x4_1_0_0_1_n_n_wf : DotDims.WF S4194304x16 S16x4 S4194304x4 [1] [0] [0] [1] [] []

variable [Facts₀]

def dot_S16x16_S16x16_S16x16_1_0_0_1_n_n : DotDims S16x16 S16x16 S16x16 where
  lhsContracting := [1]
  rhsContracting := [0]
  lhsNonContracting := [0]
  rhsNonContracting := [1]
  lhsBatch := []
  rhsBatch := []
  wf := dot_S16x16_S16x16_S16x16_1_0_0_1_n_n_wf
def dot_S4194304x16_S16x16_S4194304x16_1_0_0_1_n_n : DotDims S4194304x16 S16x16 S4194304x16 where
  lhsContracting := [1]
  rhsContracting := [0]
  lhsNonContracting := [0]
  rhsNonContracting := [1]
  lhsBatch := []
  rhsBatch := []
  wf := dot_S4194304x16_S16x16_S4194304x16_1_0_0_1_n_n_wf
def dot_S4194304x16_S16x4_S4194304x4_1_0_0_1_n_n : DotDims S4194304x16 S16x4 S4194304x4 where
  lhsContracting := [1]
  rhsContracting := [0]
  lhsNonContracting := [0]
  rhsNonContracting := [1]
  lhsBatch := []
  rhsBatch := []
  wf := dot_S4194304x16_S16x4_S4194304x4_1_0_0_1_n_n_wf

class Facts : Prop extends Facts₀ where

variable [Facts]
-- ==== Proof.RefOps.lean ====
/-
  The reference program's @main as lists of its host operations, one list per printed window of the program, each
  outlined function (the row norm, the three Kronecker products) written out at its call over that call's buffers.
  ops0: 64 operations, ops1: 75 operations, ops2: 63 operations.
-/
import proofs.«133033_j23373212024916_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's window 0, in order. -/
abbrev ops0 : List (HloOp τ sig (Elt F)) :=
  [ nullary main_cst (fun i => FloatOps.ofBits .f32 (lit0 (S16x16.rowMajor i))),
    nullary main_cst_0 (fun i => FloatOps.ofBits .f32 (lit1 (S16x4.rowMajor i))),
    TRef.binary (.of main_arg0 : StableHlo.TRef sig ⟨S4194304x16, .f32⟩) (.of main_arg0 : StableHlo.TRef sig ⟨S4194304x16, .f32⟩) main_call0.v0 mulf,
    TRef.nullary main_call0.cst (constant S_ .f32 0x00000000#32),
    TRef.binary main_call0.v0 main_call0.cst main_call0.v1 (fun x v => Host.reduceAdd x v reducesTo_S4194304x16_S4194304_d1 h_S_),
    TRef.unary main_call0.v1 main_call0.v2 (broadcastInDim S4194304x1 ![0] bcast_S4194304_S4194304x1_0),
    TRef.unary main_call0.v2 main_call0.v3 Host.sqrt,
    unary main_v0 main_v1 (broadcastInDim S4194304x16 ![0, 1] bcast_S4194304x1_S4194304x16_0_1 : (⟨S4194304x1, .f32⟩ : BufTy).Contents (Elt F) → (⟨S4194304x16, .f32⟩ : BufTy).Contents (Elt F)),
    binary main_arg0 main_v1 main_v2 (Host.divf : (⟨S4194304x16, .f32⟩ : BufTy).Contents (Elt F) → (⟨S4194304x16, .f32⟩ : BufTy).Contents (Elt F) → (⟨S4194304x16, .f32⟩ : BufTy).Contents (Elt F)),
    nullary main_cst_1 (constant S_ .f32 0x3F000000#32),
    unary main_cst_1 main_v3 (broadcastInDim S2x4 ![] bcast_S_S2x4 : (⟨S_, .f32⟩ : BufTy).Contents (Elt F) → (⟨S2x4, .f32⟩ : BufTy).Contents (Elt F)),
    binary main_arg1 main_v3 main_v4 (mulf : (⟨S2x4, .f32⟩ : BufTy).Contents (Elt F) → (⟨S2x4, .f32⟩ : BufTy).Contents (Elt F) → (⟨S2x4, .f32⟩ : BufTy).Contents (Elt F)),
    unary main_v4 main_v5 (Host.cos : (⟨S2x4, .f32⟩ : BufTy).Contents (Elt F) → (⟨S2x4, .f32⟩ : BufTy).Contents (Elt F)),
    unary main_v4 main_v6 (Host.sin : (⟨S2x4, .f32⟩ : BufTy).Contents (Elt F) → (⟨S2x4, .f32⟩ : BufTy).Contents (Elt F)),
    unary main_v5 main_v7 ((extractStridedSlice S1x1 ![0, 0] · slices_S2x4_S1x1_0_0) : (⟨S2x4, .f32⟩ : BufTy).Contents (Elt F) → (⟨S1x1, .f32⟩ : BufTy).Contents (Elt F)),
    reshape main_v7 main_v8 rfl shapeCasts_S1x1_S_,
    unary main_v6 main_v9 ((extractStridedSlice S1x1 ![0, 0] · slices_S2x4_S1x1_0_0) : (⟨S2x4, .f32⟩ : BufTy).Contents (Elt F) → (⟨S1x1, .f32⟩ : BufTy).Contents (Elt F)),
    reshape main_v9 main_v10 rfl shapeCasts_S1x1_S_,
    unary main_v10 main_v11 (Host.negf : (⟨S_, .f32⟩ : BufTy).Contents (Elt F) → (⟨S_, .f32⟩ : BufTy).Contents (Elt F)),
    unary main_v8 main_v12 (broadcastInDim S1 ![] bcast_S_S1 : (⟨S_, .f32⟩ : BufTy).Contents (Elt F) → (⟨S1, .f32⟩ : BufTy).Contents (Elt F)),
    unary main_v11 main_v13 (broadcastInDim S1 ![] bcast_S_S1 : (⟨S_, .f32⟩ : BufTy).Contents (Elt F) → (⟨S1, .f32⟩ : BufTy).Contents (Elt F)),
    binary main_v12 main_v13 main_v14 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v6 main_v15 ((extractStridedSlice S1x1 ![0, 0] · slices_S2x4_S1x1_0_0) : (⟨S2x4, .f32⟩ : BufTy).Contents (Elt F) → (⟨S1x1, .f32⟩ : BufTy).Contents (Elt F)),
    reshape main_v15 main_v16 rfl shapeCasts_S1x1_S_,
    unary main_v5 main_v17 ((extractStridedSlice S1x1 ![0, 0] · slices_S2x4_S1x1_0_0) : (⟨S2x4, .f32⟩ : BufTy).Contents (Elt F) → (⟨S1x1, .f32⟩ : BufTy).Contents (Elt F)),
    reshape main_v17 main_v18 rfl shapeCasts_S1x1_S_,
    unary main_v16 main_v19 (broadcastInDim S1 ![] bcast_S_S1 : (⟨S_, .f32⟩ : BufTy).Contents (Elt F) → (⟨S1, .f32⟩ : BufTy).Contents (Elt F)),
    unary main_v18 main_v20 (broadcastInDim S1 ![] bcast_S_S1 : (⟨S_, .f32⟩ : BufTy).Contents (Elt F) → (⟨S1, .f32⟩ : BufTy).Contents (Elt F)),
    binary main_v19 main_v20 main_v21 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v14 main_v22 (broadcastInDim S1x2 ![1] bcast_S2_S1x2_1 : (⟨S2, .f32⟩ : BufTy).Contents (Elt F) → (⟨S1x2, .f32⟩ : BufTy).Contents (Elt F)),
    unary main_v21 main_v23 (broadcastInDim S1x2 ![1] bcast_S2_S1x2_1 : (⟨S2, .f32⟩ : BufTy).Contents (Elt F) → (⟨S1x2, .f32⟩ : BufTy).Contents (Elt F)),
    binary main_v22 main_v23 main_v24 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    unary main_v5 main_v25 ((extractStridedSlice S1x1 ![0, 1] · slices_S2x4_S1x1_0_1) : (⟨S2x4, .f32⟩ : BufTy).Contents (Elt F) → (⟨S1x1, .f32⟩ : BufTy).Contents (Elt F)),
    reshape main_v25 main_v26 rfl shapeCasts_S1x1_S_,
    unary main_v6 main_v27 ((extractStridedSlice S1x1 ![0, 1] · slices_S2x4_S1x1_0_1) : (⟨S2x4, .f32⟩ : BufTy).Contents (Elt F) → (⟨S1x1, .f32⟩ : BufTy).Contents (Elt F)),
    reshape main_v27 main_v28 rfl shapeCasts_S1x1_S_,
    unary main_v28 main_v29 (Host.negf : (⟨S_, .f32⟩ : BufTy).Contents (Elt F) → (⟨S_, .f32⟩ : BufTy).Contents (Elt F)),
    unary main_v26 main_v30 (broadcastInDim S1 ![] bcast_S_S1 : (⟨S_, .f32⟩ : BufTy).Contents (Elt F) → (⟨S1, .f32⟩ : BufTy).Contents (Elt F)),
    unary main_v29 main_v31 (broadcastInDim S1 ![] bcast_S_S1 : (⟨S_, .f32⟩ : BufTy).Contents (Elt F) → (⟨S1, .f32⟩ : BufTy).Contents (Elt F)),
    binary main_v30 main_v31 main_v32 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v6 main_v33 ((extractStridedSlice S1x1 ![0, 1] · slices_S2x4_S1x1_0_1) : (⟨S2x4, .f32⟩ : BufTy).Contents (Elt F) → (⟨S1x1, .f32⟩ : BufTy).Contents (Elt F)),
    reshape main_v33 main_v34 rfl shapeCasts_S1x1_S_,
    unary main_v5 main_v35 ((extractStridedSlice S1x1 ![0, 1] · slices_S2x4_S1x1_0_1) : (⟨S2x4, .f32⟩ : BufTy).Contents (Elt F) → (⟨S1x1, .f32⟩ : BufTy).Contents (Elt F)),
    reshape main_v35 main_v36 rfl shapeCasts_S1x1_S_,
    unary main_v34 main_v37 (broadcastInDim S1 ![] bcast_S_S1 : (⟨S_, .f32⟩ : BufTy).Contents (Elt F) → (⟨S1, .f32⟩ : BufTy).Contents (Elt F)),
    unary main_v36 main_v38 (broadcastInDim S1 ![] bcast_S_S1 : (⟨S_, .f32⟩ : BufTy).Contents (Elt F) → (⟨S1, .f32⟩ : BufTy).Contents (Elt F)),
    binary main_v37 main_v38 main_v39 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v32 main_v40 (broadcastInDim S1x2 ![1] bcast_S2_S1x2_1 : (⟨S2, .f32⟩ : BufTy).Contents (Elt F) → (⟨S1x2, .f32⟩ : BufTy).Contents (Elt F)),
    unary main_v39 main_v41 (broadcastInDim S1x2 ![1] bcast_S2_S1x2_1 : (⟨S2, .f32⟩ : BufTy).Contents (Elt F) → (⟨S1x2, .f32⟩ : BufTy).Contents (Elt F)),
    binary main_v40 main_v41 main_v42 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    unary main_v5 main_v43 ((extractStridedSlice S1x1 ![0, 2] · slices_S2x4_S1x1_0_2) : (⟨S2x4, .f32⟩ : BufTy).Contents (Elt F) → (⟨S1x1, .f32⟩ : BufTy).Contents (Elt F)),
    reshape main_v43 main_v44 rfl shapeCasts_S1x1_S_,
    unary main_v6 main_v45 ((extractStridedSlice S1x1 ![0, 2] · slices_S2x4_S1x1_0_2) : (⟨S2x4, .f32⟩ : BufTy).Contents (Elt F) → (⟨S1x1, .f32⟩ : BufTy).Contents (Elt F)),
    reshape main_v45 main_v46 rfl shapeCasts_S1x1_S_,
    unary main_v46 main_v47 (Host.negf : (⟨S_, .f32⟩ : BufTy).Contents (Elt F) → (⟨S_, .f32⟩ : BufTy).Contents (Elt F)),
    unary main_v44 main_v48 (broadcastInDim S1 ![] bcast_S_S1 : (⟨S_, .f32⟩ : BufTy).Contents (Elt F) → (⟨S1, .f32⟩ : BufTy).Contents (Elt F)),
    unary main_v47 main_v49 (broadcastInDim S1 ![] bcast_S_S1 : (⟨S_, .f32⟩ : BufTy).Contents (Elt F) → (⟨S1, .f32⟩ : BufTy).Contents (Elt F)),
    binary main_v48 main_v49 main_v50 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v6 main_v51 ((extractStridedSlice S1x1 ![0, 2] · slices_S2x4_S1x1_0_2) : (⟨S2x4, .f32⟩ : BufTy).Contents (Elt F) → (⟨S1x1, .f32⟩ : BufTy).Contents (Elt F)),
    reshape main_v51 main_v52 rfl shapeCasts_S1x1_S_,
    unary main_v5 main_v53 ((extractStridedSlice S1x1 ![0, 2] · slices_S2x4_S1x1_0_2) : (⟨S2x4, .f32⟩ : BufTy).Contents (Elt F) → (⟨S1x1, .f32⟩ : BufTy).Contents (Elt F)),
    reshape main_v53 main_v54 rfl shapeCasts_S1x1_S_,
    unary main_v52 main_v55 (broadcastInDim S1 ![] bcast_S_S1 : (⟨S_, .f32⟩ : BufTy).Contents (Elt F) → (⟨S1, .f32⟩ : BufTy).Contents (Elt F)),
    unary main_v54 main_v56 (broadcastInDim S1 ![] bcast_S_S1 : (⟨S_, .f32⟩ : BufTy).Contents (Elt F) → (⟨S1, .f32⟩ : BufTy).Contents (Elt F)) ]

/-- The operations of the program's window 1, in order. -/
abbrev ops1 : List (HloOp τ sig (Elt F)) :=
  [ binary main_v55 main_v56 main_v57 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v50 main_v58 (broadcastInDim S1x2 ![1] bcast_S2_S1x2_1 : (⟨S2, .f32⟩ : BufTy).Contents (Elt F) → (⟨S1x2, .f32⟩ : BufTy).Contents (Elt F)),
    unary main_v57 main_v59 (broadcastInDim S1x2 ![1] bcast_S2_S1x2_1 : (⟨S2, .f32⟩ : BufTy).Contents (Elt F) → (⟨S1x2, .f32⟩ : BufTy).Contents (Elt F)),
    binary main_v58 main_v59 main_v60 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    unary main_v5 main_v61 ((extractStridedSlice S1x1 ![0, 3] · slices_S2x4_S1x1_0_3) : (⟨S2x4, .f32⟩ : BufTy).Contents (Elt F) → (⟨S1x1, .f32⟩ : BufTy).Contents (Elt F)),
    reshape main_v61 main_v62 rfl shapeCasts_S1x1_S_,
    unary main_v6 main_v63 ((extractStridedSlice S1x1 ![0, 3] · slices_S2x4_S1x1_0_3) : (⟨S2x4, .f32⟩ : BufTy).Contents (Elt F) → (⟨S1x1, .f32⟩ : BufTy).Contents (Elt F)),
    reshape main_v63 main_v64 rfl shapeCasts_S1x1_S_,
    unary main_v64 main_v65 (Host.negf : (⟨S_, .f32⟩ : BufTy).Contents (Elt F) → (⟨S_, .f32⟩ : BufTy).Contents (Elt F)),
    unary main_v62 main_v66 (broadcastInDim S1 ![] bcast_S_S1 : (⟨S_, .f32⟩ : BufTy).Contents (Elt F) → (⟨S1, .f32⟩ : BufTy).Contents (Elt F)),
    unary main_v65 main_v67 (broadcastInDim S1 ![] bcast_S_S1 : (⟨S_, .f32⟩ : BufTy).Contents (Elt F) → (⟨S1, .f32⟩ : BufTy).Contents (Elt F)),
    binary main_v66 main_v67 main_v68 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v6 main_v69 ((extractStridedSlice S1x1 ![0, 3] · slices_S2x4_S1x1_0_3) : (⟨S2x4, .f32⟩ : BufTy).Contents (Elt F) → (⟨S1x1, .f32⟩ : BufTy).Contents (Elt F)),
    reshape main_v69 main_v70 rfl shapeCasts_S1x1_S_,
    unary main_v5 main_v71 ((extractStridedSlice S1x1 ![0, 3] · slices_S2x4_S1x1_0_3) : (⟨S2x4, .f32⟩ : BufTy).Contents (Elt F) → (⟨S1x1, .f32⟩ : BufTy).Contents (Elt F)),
    reshape main_v71 main_v72 rfl shapeCasts_S1x1_S_,
    unary main_v70 main_v73 (broadcastInDim S1 ![] bcast_S_S1 : (⟨S_, .f32⟩ : BufTy).Contents (Elt F) → (⟨S1, .f32⟩ : BufTy).Contents (Elt F)),
    unary main_v72 main_v74 (broadcastInDim S1 ![] bcast_S_S1 : (⟨S_, .f32⟩ : BufTy).Contents (Elt F) → (⟨S1, .f32⟩ : BufTy).Contents (Elt F)),
    binary main_v73 main_v74 main_v75 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v68 main_v76 (broadcastInDim S1x2 ![1] bcast_S2_S1x2_1 : (⟨S2, .f32⟩ : BufTy).Contents (Elt F) → (⟨S1x2, .f32⟩ : BufTy).Contents (Elt F)),
    unary main_v75 main_v77 (broadcastInDim S1x2 ![1] bcast_S2_S1x2_1 : (⟨S2, .f32⟩ : BufTy).Contents (Elt F) → (⟨S1x2, .f32⟩ : BufTy).Contents (Elt F)),
    binary main_v76 main_v77 main_v78 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    TRef.unary (.of main_v24 : StableHlo.TRef sig ⟨S2x2, .f32⟩) main_call1.v0 (broadcastInDim S2x1x2x1 ![0, 2] bcast_S2x2_S2x1x2x1_0_2),
    TRef.unary (.of main_v42 : StableHlo.TRef sig ⟨S2x2, .f32⟩) main_call1.v1 (broadcastInDim S1x2x1x2 ![1, 3] bcast_S2x2_S1x2x1x2_1_3),
    TRef.unary main_call1.v0 main_call1.v2 (broadcastInDim S2x2x2x2 ![0, 1, 2, 3] bcast_S2x1x2x1_S2x2x2x2_0_1_2_3),
    TRef.unary main_call1.v1 main_call1.v3 (broadcastInDim S2x2x2x2 ![0, 1, 2, 3] bcast_S1x2x1x2_S2x2x2x2_0_1_2_3),
    TRef.binary main_call1.v2 main_call1.v3 main_call1.v4 mulf,
    TRef.reshape main_call1.v4 main_call1.v5 rfl shapeCasts_S2x2x2x2_S4x4,
    TRef.unary (.of main_v79 : StableHlo.TRef sig ⟨S4x4, .f32⟩) main_call2.v0 (broadcastInDim S4x1x4x1 ![0, 2] bcast_S4x4_S4x1x4x1_0_2),
    TRef.unary (.of main_v60 : StableHlo.TRef sig ⟨S2x2, .f32⟩) main_call2.v1 (broadcastInDim S1x2x1x2 ![1, 3] bcast_S2x2_S1x2x1x2_1_3),
    TRef.unary main_call2.v0 main_call2.v2 (broadcastInDim S4x2x4x2 ![0, 1, 2, 3] bcast_S4x1x4x1_S4x2x4x2_0_1_2_3),
    TRef.unary main_call2.v1 main_call2.v3 (broadcastInDim S4x2x4x2 ![0, 1, 2, 3] bcast_S1x2x1x2_S4x2x4x2_0_1_2_3),
    TRef.binary main_call2.v2 main_call2.v3 main_call2.v4 mulf,
    TRef.reshape main_call2.v4 main_call2.v5 rfl shapeCasts_S4x2x4x2_S8x8,
    TRef.unary (.of main_v80 : StableHlo.TRef sig ⟨S8x8, .f32⟩) main_call3.v0 (broadcastInDim S8x1x8x1 ![0, 2] bcast_S8x8_S8x1x8x1_0_2),
    TRef.unary (.of main_v78 : StableHlo.TRef sig ⟨S2x2, .f32⟩) main_call3.v1 (broadcastInDim S1x2x1x2 ![1, 3] bcast_S2x2_S1x2x1x2_1_3),
    TRef.unary main_call3.v0 main_call3.v2 (broadcastInDim S8x2x8x2 ![0, 1, 2, 3] bcast_S8x1x8x1_S8x2x8x2_0_1_2_3),
    TRef.unary main_call3.v1 main_call3.v3 (broadcastInDim S8x2x8x2 ![0, 1, 2, 3] bcast_S1x2x1x2_S8x2x8x2_0_1_2_3),
    TRef.binary main_call3.v2 main_call3.v3 main_call3.v4 mulf,
    TRef.reshape main_call3.v4 main_call3.v5 rfl shapeCasts_S8x2x8x2_S16x16,
    binary main_cst main_v81 main_v82 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    unary main_v82 main_v83 ((transpose S16x16 [1, 0] · transposes_S16x16_S16x16_1_0) : (⟨S16x16, .f32⟩ : BufTy).Contents (Elt F) → (⟨S16x16, .f32⟩ : BufTy).Contents (Elt F)),
    binary main_v2 main_v83 main_v84 ((fun l r => Host.dotGeneral dot_S4194304x16_S16x16_S4194304x16_1_0_0_1_n_n none l r) : (⟨S4194304x16, .f32⟩ : BufTy).Contents (Elt F) → (⟨S16x16, .f32⟩ : BufTy).Contents (Elt F) → (⟨S4194304x16, .f32⟩ : BufTy).Contents (Elt F)),
    unary main_v5 main_v85 ((extractStridedSlice S1x1 ![1, 0] · slices_S2x4_S1x1_1_0) : (⟨S2x4, .f32⟩ : BufTy).Contents (Elt F) → (⟨S1x1, .f32⟩ : BufTy).Contents (Elt F)),
    reshape main_v85 main_v86 rfl shapeCasts_S1x1_S_,
    unary main_v6 main_v87 ((extractStridedSlice S1x1 ![1, 0] · slices_S2x4_S1x1_1_0) : (⟨S2x4, .f32⟩ : BufTy).Contents (Elt F) → (⟨S1x1, .f32⟩ : BufTy).Contents (Elt F)),
    reshape main_v87 main_v88 rfl shapeCasts_S1x1_S_,
    unary main_v88 main_v89 (Host.negf : (⟨S_, .f32⟩ : BufTy).Contents (Elt F) → (⟨S_, .f32⟩ : BufTy).Contents (Elt F)),
    unary main_v86 main_v90 (broadcastInDim S1 ![] bcast_S_S1 : (⟨S_, .f32⟩ : BufTy).Contents (Elt F) → (⟨S1, .f32⟩ : BufTy).Contents (Elt F)),
    unary main_v89 main_v91 (broadcastInDim S1 ![] bcast_S_S1 : (⟨S_, .f32⟩ : BufTy).Contents (Elt F) → (⟨S1, .f32⟩ : BufTy).Contents (Elt F)),
    binary main_v90 main_v91 main_v92 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v6 main_v93 ((extractStridedSlice S1x1 ![1, 0] · slices_S2x4_S1x1_1_0) : (⟨S2x4, .f32⟩ : BufTy).Contents (Elt F) → (⟨S1x1, .f32⟩ : BufTy).Contents (Elt F)),
    reshape main_v93 main_v94 rfl shapeCasts_S1x1_S_,
    unary main_v5 main_v95 ((extractStridedSlice S1x1 ![1, 0] · slices_S2x4_S1x1_1_0) : (⟨S2x4, .f32⟩ : BufTy).Contents (Elt F) → (⟨S1x1, .f32⟩ : BufTy).Contents (Elt F)),
    reshape main_v95 main_v96 rfl shapeCasts_S1x1_S_,
    unary main_v94 main_v97 (broadcastInDim S1 ![] bcast_S_S1 : (⟨S_, .f32⟩ : BufTy).Contents (Elt F) → (⟨S1, .f32⟩ : BufTy).Contents (Elt F)),
    unary main_v96 main_v98 (broadcastInDim S1 ![] bcast_S_S1 : (⟨S_, .f32⟩ : BufTy).Contents (Elt F) → (⟨S1, .f32⟩ : BufTy).Contents (Elt F)),
    binary main_v97 main_v98 main_v99 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v92 main_v100 (broadcastInDim S1x2 ![1] bcast_S2_S1x2_1 : (⟨S2, .f32⟩ : BufTy).Contents (Elt F) → (⟨S1x2, .f32⟩ : BufTy).Contents (Elt F)),
    unary main_v99 main_v101 (broadcastInDim S1x2 ![1] bcast_S2_S1x2_1 : (⟨S2, .f32⟩ : BufTy).Contents (Elt F) → (⟨S1x2, .f32⟩ : BufTy).Contents (Elt F)),
    binary main_v100 main_v101 main_v102 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    unary main_v5 main_v103 ((extractStridedSlice S1x1 ![1, 1] · slices_S2x4_S1x1_1_1) : (⟨S2x4, .f32⟩ : BufTy).Contents (Elt F) → (⟨S1x1, .f32⟩ : BufTy).Contents (Elt F)),
    reshape main_v103 main_v104 rfl shapeCasts_S1x1_S_,
    unary main_v6 main_v105 ((extractStridedSlice S1x1 ![1, 1] · slices_S2x4_S1x1_1_1) : (⟨S2x4, .f32⟩ : BufTy).Contents (Elt F) → (⟨S1x1, .f32⟩ : BufTy).Contents (Elt F)),
    reshape main_v105 main_v106 rfl shapeCasts_S1x1_S_,
    unary main_v106 main_v107 (Host.negf : (⟨S_, .f32⟩ : BufTy).Contents (Elt F) → (⟨S_, .f32⟩ : BufTy).Contents (Elt F)),
    unary main_v104 main_v108 (broadcastInDim S1 ![] bcast_S_S1 : (⟨S_, .f32⟩ : BufTy).Contents (Elt F) → (⟨S1, .f32⟩ : BufTy).Contents (Elt F)),
    unary main_v107 main_v109 (broadcastInDim S1 ![] bcast_S_S1 : (⟨S_, .f32⟩ : BufTy).Contents (Elt F) → (⟨S1, .f32⟩ : BufTy).Contents (Elt F)),
    binary main_v108 main_v109 main_v110 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v6 main_v111 ((extractStridedSlice S1x1 ![1, 1] · slices_S2x4_S1x1_1_1) : (⟨S2x4, .f32⟩ : BufTy).Contents (Elt F) → (⟨S1x1, .f32⟩ : BufTy).Contents (Elt F)),
    reshape main_v111 main_v112 rfl shapeCasts_S1x1_S_,
    unary main_v5 main_v113 ((extractStridedSlice S1x1 ![1, 1] · slices_S2x4_S1x1_1_1) : (⟨S2x4, .f32⟩ : BufTy).Contents (Elt F) → (⟨S1x1, .f32⟩ : BufTy).Contents (Elt F)),
    reshape main_v113 main_v114 rfl shapeCasts_S1x1_S_,
    unary main_v112 main_v115 (broadcastInDim S1 ![] bcast_S_S1 : (⟨S_, .f32⟩ : BufTy).Contents (Elt F) → (⟨S1, .f32⟩ : BufTy).Contents (Elt F)),
    unary main_v114 main_v116 (broadcastInDim S1 ![] bcast_S_S1 : (⟨S_, .f32⟩ : BufTy).Contents (Elt F) → (⟨S1, .f32⟩ : BufTy).Contents (Elt F)) ]

/-- The operations of the program's window 2, in order. -/
abbrev ops2 : List (HloOp τ sig (Elt F)) :=
  [ binary main_v115 main_v116 main_v117 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v110 main_v118 (broadcastInDim S1x2 ![1] bcast_S2_S1x2_1 : (⟨S2, .f32⟩ : BufTy).Contents (Elt F) → (⟨S1x2, .f32⟩ : BufTy).Contents (Elt F)),
    unary main_v117 main_v119 (broadcastInDim S1x2 ![1] bcast_S2_S1x2_1 : (⟨S2, .f32⟩ : BufTy).Contents (Elt F) → (⟨S1x2, .f32⟩ : BufTy).Contents (Elt F)),
    binary main_v118 main_v119 main_v120 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    unary main_v5 main_v121 ((extractStridedSlice S1x1 ![1, 2] · slices_S2x4_S1x1_1_2) : (⟨S2x4, .f32⟩ : BufTy).Contents (Elt F) → (⟨S1x1, .f32⟩ : BufTy).Contents (Elt F)),
    reshape main_v121 main_v122 rfl shapeCasts_S1x1_S_,
    unary main_v6 main_v123 ((extractStridedSlice S1x1 ![1, 2] · slices_S2x4_S1x1_1_2) : (⟨S2x4, .f32⟩ : BufTy).Contents (Elt F) → (⟨S1x1, .f32⟩ : BufTy).Contents (Elt F)),
    reshape main_v123 main_v124 rfl shapeCasts_S1x1_S_,
    unary main_v124 main_v125 (Host.negf : (⟨S_, .f32⟩ : BufTy).Contents (Elt F) → (⟨S_, .f32⟩ : BufTy).Contents (Elt F)),
    unary main_v122 main_v126 (broadcastInDim S1 ![] bcast_S_S1 : (⟨S_, .f32⟩ : BufTy).Contents (Elt F) → (⟨S1, .f32⟩ : BufTy).Contents (Elt F)),
    unary main_v125 main_v127 (broadcastInDim S1 ![] bcast_S_S1 : (⟨S_, .f32⟩ : BufTy).Contents (Elt F) → (⟨S1, .f32⟩ : BufTy).Contents (Elt F)),
    binary main_v126 main_v127 main_v128 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v6 main_v129 ((extractStridedSlice S1x1 ![1, 2] · slices_S2x4_S1x1_1_2) : (⟨S2x4, .f32⟩ : BufTy).Contents (Elt F) → (⟨S1x1, .f32⟩ : BufTy).Contents (Elt F)),
    reshape main_v129 main_v130 rfl shapeCasts_S1x1_S_,
    unary main_v5 main_v131 ((extractStridedSlice S1x1 ![1, 2] · slices_S2x4_S1x1_1_2) : (⟨S2x4, .f32⟩ : BufTy).Contents (Elt F) → (⟨S1x1, .f32⟩ : BufTy).Contents (Elt F)),
    reshape main_v131 main_v132 rfl shapeCasts_S1x1_S_,
    unary main_v130 main_v133 (broadcastInDim S1 ![] bcast_S_S1 : (⟨S_, .f32⟩ : BufTy).Contents (Elt F) → (⟨S1, .f32⟩ : BufTy).Contents (Elt F)),
    unary main_v132 main_v134 (broadcastInDim S1 ![] bcast_S_S1 : (⟨S_, .f32⟩ : BufTy).Contents (Elt F) → (⟨S1, .f32⟩ : BufTy).Contents (Elt F)),
    binary main_v133 main_v134 main_v135 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v128 main_v136 (broadcastInDim S1x2 ![1] bcast_S2_S1x2_1 : (⟨S2, .f32⟩ : BufTy).Contents (Elt F) → (⟨S1x2, .f32⟩ : BufTy).Contents (Elt F)),
    unary main_v135 main_v137 (broadcastInDim S1x2 ![1] bcast_S2_S1x2_1 : (⟨S2, .f32⟩ : BufTy).Contents (Elt F) → (⟨S1x2, .f32⟩ : BufTy).Contents (Elt F)),
    binary main_v136 main_v137 main_v138 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    unary main_v5 main_v139 ((extractStridedSlice S1x1 ![1, 3] · slices_S2x4_S1x1_1_3) : (⟨S2x4, .f32⟩ : BufTy).Contents (Elt F) → (⟨S1x1, .f32⟩ : BufTy).Contents (Elt F)),
    reshape main_v139 main_v140 rfl shapeCasts_S1x1_S_,
    unary main_v6 main_v141 ((extractStridedSlice S1x1 ![1, 3] · slices_S2x4_S1x1_1_3) : (⟨S2x4, .f32⟩ : BufTy).Contents (Elt F) → (⟨S1x1, .f32⟩ : BufTy).Contents (Elt F)),
    reshape main_v141 main_v142 rfl shapeCasts_S1x1_S_,
    unary main_v142 main_v143 (Host.negf : (⟨S_, .f32⟩ : BufTy).Contents (Elt F) → (⟨S_, .f32⟩ : BufTy).Contents (Elt F)),
    unary main_v140 main_v144 (broadcastInDim S1 ![] bcast_S_S1 : (⟨S_, .f32⟩ : BufTy).Contents (Elt F) → (⟨S1, .f32⟩ : BufTy).Contents (Elt F)),
    unary main_v143 main_v145 (broadcastInDim S1 ![] bcast_S_S1 : (⟨S_, .f32⟩ : BufTy).Contents (Elt F) → (⟨S1, .f32⟩ : BufTy).Contents (Elt F)),
    binary main_v144 main_v145 main_v146 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v6 main_v147 ((extractStridedSlice S1x1 ![1, 3] · slices_S2x4_S1x1_1_3) : (⟨S2x4, .f32⟩ : BufTy).Contents (Elt F) → (⟨S1x1, .f32⟩ : BufTy).Contents (Elt F)),
    reshape main_v147 main_v148 rfl shapeCasts_S1x1_S_,
    unary main_v5 main_v149 ((extractStridedSlice S1x1 ![1, 3] · slices_S2x4_S1x1_1_3) : (⟨S2x4, .f32⟩ : BufTy).Contents (Elt F) → (⟨S1x1, .f32⟩ : BufTy).Contents (Elt F)),
    reshape main_v149 main_v150 rfl shapeCasts_S1x1_S_,
    unary main_v148 main_v151 (broadcastInDim S1 ![] bcast_S_S1 : (⟨S_, .f32⟩ : BufTy).Contents (Elt F) → (⟨S1, .f32⟩ : BufTy).Contents (Elt F)),
    unary main_v150 main_v152 (broadcastInDim S1 ![] bcast_S_S1 : (⟨S_, .f32⟩ : BufTy).Contents (Elt F) → (⟨S1, .f32⟩ : BufTy).Contents (Elt F)),
    binary main_v151 main_v152 main_v153 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)),
    unary main_v146 main_v154 (broadcastInDim S1x2 ![1] bcast_S2_S1x2_1 : (⟨S2, .f32⟩ : BufTy).Contents (Elt F) → (⟨S1x2, .f32⟩ : BufTy).Contents (Elt F)),
    unary main_v153 main_v155 (broadcastInDim S1x2 ![1] bcast_S2_S1x2_1 : (⟨S2, .f32⟩ : BufTy).Contents (Elt F) → (⟨S1x2, .f32⟩ : BufTy).Contents (Elt F)),
    binary main_v154 main_v155 main_v156 ((fun a b => concatenate S2x2 0 [⟨S1x2, a⟩, ⟨S1x2, b⟩] concatenates_S1x2_S1x2_S2x2_d0) : (⟨S1x2, .f32⟩ : BufTy).Contents (Elt F) → (⟨S1x2, .f32⟩ : BufTy).Contents (Elt F) → (⟨S2x2, .f32⟩ : BufTy).Contents (Elt F)),
    TRef.unary (.of main_v102 : StableHlo.TRef sig ⟨S2x2, .f32⟩) main_call4.v0 (broadcastInDim S2x1x2x1 ![0, 2] bcast_S2x2_S2x1x2x1_0_2),
    TRef.unary (.of main_v120 : StableHlo.TRef sig ⟨S2x2, .f32⟩) main_call4.v1 (broadcastInDim S1x2x1x2 ![1, 3] bcast_S2x2_S1x2x1x2_1_3),
    TRef.unary main_call4.v0 main_call4.v2 (broadcastInDim S2x2x2x2 ![0, 1, 2, 3] bcast_S2x1x2x1_S2x2x2x2_0_1_2_3),
    TRef.unary main_call4.v1 main_call4.v3 (broadcastInDim S2x2x2x2 ![0, 1, 2, 3] bcast_S1x2x1x2_S2x2x2x2_0_1_2_3),
    TRef.binary main_call4.v2 main_call4.v3 main_call4.v4 mulf,
    TRef.reshape main_call4.v4 main_call4.v5 rfl shapeCasts_S2x2x2x2_S4x4,
    TRef.unary (.of main_v157 : StableHlo.TRef sig ⟨S4x4, .f32⟩) main_call5.v0 (broadcastInDim S4x1x4x1 ![0, 2] bcast_S4x4_S4x1x4x1_0_2),
    TRef.unary (.of main_v138 : StableHlo.TRef sig ⟨S2x2, .f32⟩) main_call5.v1 (broadcastInDim S1x2x1x2 ![1, 3] bcast_S2x2_S1x2x1x2_1_3),
    TRef.unary main_call5.v0 main_call5.v2 (broadcastInDim S4x2x4x2 ![0, 1, 2, 3] bcast_S4x1x4x1_S4x2x4x2_0_1_2_3),
    TRef.unary main_call5.v1 main_call5.v3 (broadcastInDim S4x2x4x2 ![0, 1, 2, 3] bcast_S1x2x1x2_S4x2x4x2_0_1_2_3),
    TRef.binary main_call5.v2 main_call5.v3 main_call5.v4 mulf,
    TRef.reshape main_call5.v4 main_call5.v5 rfl shapeCasts_S4x2x4x2_S8x8,
    TRef.unary (.of main_v158 : StableHlo.TRef sig ⟨S8x8, .f32⟩) main_call6.v0 (broadcastInDim S8x1x8x1 ![0, 2] bcast_S8x8_S8x1x8x1_0_2),
    TRef.unary (.of main_v156 : StableHlo.TRef sig ⟨S2x2, .f32⟩) main_call6.v1 (broadcastInDim S1x2x1x2 ![1, 3] bcast_S2x2_S1x2x1x2_1_3),
    TRef.unary main_call6.v0 main_call6.v2 (broadcastInDim S8x2x8x2 ![0, 1, 2, 3] bcast_S8x1x8x1_S8x2x8x2_0_1_2_3),
    TRef.unary main_call6.v1 main_call6.v3 (broadcastInDim S8x2x8x2 ![0, 1, 2, 3] bcast_S1x2x1x2_S8x2x8x2_0_1_2_3),
    TRef.binary main_call6.v2 main_call6.v3 main_call6.v4 mulf,
    TRef.reshape main_call6.v4 main_call6.v5 rfl shapeCasts_S8x2x8x2_S16x16,
    binary main_cst main_v159 main_v160 ((fun l r => Host.dotGeneral dot_S16x16_S16x16_S16x16_1_0_0_1_n_n none l r) : (⟨S16x16, .f32⟩ : BufTy).Contents (Elt F) → (⟨S16x16, .f32⟩ : BufTy).Contents (Elt F) → (⟨S16x16, .f32⟩ : BufTy).Contents (Elt F)),
    unary main_v160 main_v161 ((transpose S16x16 [1, 0] · transposes_S16x16_S16x16_1_0) : (⟨S16x16, .f32⟩ : BufTy).Contents (Elt F) → (⟨S16x16, .f32⟩ : BufTy).Contents (Elt F)),
    binary main_v84 main_v161 main_v162 ((fun l r => Host.dotGeneral dot_S4194304x16_S16x16_S4194304x16_1_0_0_1_n_n none l r) : (⟨S4194304x16, .f32⟩ : BufTy).Contents (Elt F) → (⟨S16x16, .f32⟩ : BufTy).Contents (Elt F) → (⟨S4194304x16, .f32⟩ : BufTy).Contents (Elt F)),
    binary main_v162 main_v162 main_v163 (mulf : (⟨S4194304x16, .f32⟩ : BufTy).Contents (Elt F) → (⟨S4194304x16, .f32⟩ : BufTy).Contents (Elt F) → (⟨S4194304x16, .f32⟩ : BufTy).Contents (Elt F)),
    binary main_v163 main_cst_0 main_v164 ((fun l r => Host.dotGeneral dot_S4194304x16_S16x4_S4194304x4_1_0_0_1_n_n none l r) : (⟨S4194304x16, .f32⟩ : BufTy).Contents (Elt F) → (⟨S16x4, .f32⟩ : BufTy).Contents (Elt F) → (⟨S4194304x4, .f32⟩ : BufTy).Contents (Elt F)) ]

/-- The whole program's operations, in order. -/
abbrev ops : List (HloOp τ sig (Elt F)) := ops0 ++ ops1 ++ ops2

end Cert.ReferenceIdeal.RefRun

end
-- ==== Proof.RefRun.lean ====
/-
  The reference program's run. Its @main is a straight line of host operations: each printed window of the program is
  the sequence of that window's operations (the outlined functions' bodies opened at their calls, the sequencing
  re-associated), so the whole program is the sequence of the concatenated list; every operation touches TensorCore
  buffers only; hence every weakly fair execution terminates with each buffer at the fold of the operations over the
  launch contents.
-/
import proofs.«133033_j23373212024916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Window 0 is its 64 operations in order: the row norm's body opened at its call. -/
theorem part0_eq (c : Dev nD) : main_part0 (F := F) c = seq ops0 := by
  simp only [main_part0, fn_norm.body, seq, bind_assoc, pure_bind]
  rfl

set_option maxRecDepth 8192 in
/-- Window 1 is its 75 operations in order: the three Kronecker products' bodies opened at their calls. -/
theorem part1_eq (c : Dev nD) : main_part1 (F := F) c = seq ops1 := by
  simp only [main_part1, fn_kron.body, fn_kron_0.body, fn_kron_1.body, seq, bind_assoc, pure_bind]
  rfl

set_option maxRecDepth 8192 in
/-- Window 2 is its 63 operations in order. -/
theorem part2_eq (c : Dev nD) : main_part2 (F := F) c = seq ops2 := by
  simp only [main_part2, fn_kron.body, fn_kron_0.body, fn_kron_1.body, seq, bind_assoc, pure_bind]

/-- The whole program is the sequence of all 202 operations: the three windows one after the other are their
    concatenation run as one. -/
theorem main_eq (c : Dev nD) : main (F := F) c = seq ops := by
  show (main_part0 (F := F) c >>= fun _ => main_part1 (F := F) c >>= fun _ => main_part2 (F := F) c) = seq ((ops0 ++ ops1) ++ ops2)
  rw [seq_append, seq_append, bind_assoc, part0_eq, part1_eq, part2_eq]

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation of window 0 touches TensorCore buffers only. -/
theorem ops0_sub : (ops0 : List (HloOp τ sig (Elt F))).Forall fun op => op.bufs ⊆ tcRefs τ sig :=
  ⟨nullary_bufs_sub .., nullary_bufs_sub .., binary_bufs_sub .., nullary_bufs_sub .., binary_bufs_sub .., unary_bufs_sub ..,
    unary_bufs_sub .., unary_bufs_sub .., binary_bufs_sub .., nullary_bufs_sub .., unary_bufs_sub .., binary_bufs_sub ..,
    unary_bufs_sub .., unary_bufs_sub .., unary_bufs_sub .., reshape_bufs_sub .., unary_bufs_sub .., reshape_bufs_sub ..,
    unary_bufs_sub .., unary_bufs_sub .., unary_bufs_sub .., binary_bufs_sub .., unary_bufs_sub .., reshape_bufs_sub ..,
    unary_bufs_sub .., reshape_bufs_sub .., unary_bufs_sub .., unary_bufs_sub .., binary_bufs_sub .., unary_bufs_sub ..,
    unary_bufs_sub .., binary_bufs_sub .., unary_bufs_sub .., reshape_bufs_sub .., unary_bufs_sub .., reshape_bufs_sub ..,
    unary_bufs_sub .., unary_bufs_sub .., unary_bufs_sub .., binary_bufs_sub .., unary_bufs_sub .., reshape_bufs_sub ..,
    unary_bufs_sub .., reshape_bufs_sub .., unary_bufs_sub .., unary_bufs_sub .., binary_bufs_sub .., unary_bufs_sub ..,
    unary_bufs_sub .., binary_bufs_sub .., unary_bufs_sub .., reshape_bufs_sub .., unary_bufs_sub .., reshape_bufs_sub ..,
    unary_bufs_sub .., unary_bufs_sub .., unary_bufs_sub .., binary_bufs_sub .., unary_bufs_sub .., reshape_bufs_sub ..,
    unary_bufs_sub .., reshape_bufs_sub .., unary_bufs_sub .., unary_bufs_sub ..⟩

/-- Every operation of window 1 touches TensorCore buffers only. -/
theorem ops1_sub : (ops1 : List (HloOp τ sig (Elt F))).Forall fun op => op.bufs ⊆ tcRefs τ sig :=
  ⟨binary_bufs_sub .., unary_bufs_sub .., unary_bufs_sub .., binary_bufs_sub .., unary_bufs_sub .., reshape_bufs_sub ..,
    unary_bufs_sub .., reshape_bufs_sub .., unary_bufs_sub .., unary_bufs_sub .., unary_bufs_sub .., binary_bufs_sub ..,
    unary_bufs_sub .., reshape_bufs_sub .., unary_bufs_sub .., reshape_bufs_sub .., unary_bufs_sub .., unary_bufs_sub ..,
    binary_bufs_sub .., unary_bufs_sub .., unary_bufs_sub .., binary_bufs_sub .., unary_bufs_sub .., unary_bufs_sub ..,
    unary_bufs_sub .., unary_bufs_sub .., binary_bufs_sub .., reshape_bufs_sub .., unary_bufs_sub .., unary_bufs_sub ..,
    unary_bufs_sub .., unary_bufs_sub .., binary_bufs_sub .., reshape_bufs_sub .., unary_bufs_sub .., unary_bufs_sub ..,
    unary_bufs_sub .., unary_bufs_sub .., binary_bufs_sub .., reshape_bufs_sub .., binary_bufs_sub .., unary_bufs_sub ..,
    binary_bufs_sub .., unary_bufs_sub .., reshape_bufs_sub .., unary_bufs_sub .., reshape_bufs_sub .., unary_bufs_sub ..,
    unary_bufs_sub .., unary_bufs_sub .., binary_bufs_sub .., unary_bufs_sub .., reshape_bufs_sub .., unary_bufs_sub ..,
    reshape_bufs_sub .., unary_bufs_sub .., unary_bufs_sub .., binary_bufs_sub .., unary_bufs_sub .., unary_bufs_sub ..,
    binary_bufs_sub .., unary_bufs_sub .., reshape_bufs_sub .., unary_bufs_sub .., reshape_bufs_sub .., unary_bufs_sub ..,
    unary_bufs_sub .., unary_bufs_sub .., binary_bufs_sub .., unary_bufs_sub .., reshape_bufs_sub .., unary_bufs_sub ..,
    reshape_bufs_sub .., unary_bufs_sub .., unary_bufs_sub ..⟩

/-- Every operation of window 2 touches TensorCore buffers only. -/
theorem ops2_sub : (ops2 : List (HloOp τ sig (Elt F))).Forall fun op => op.bufs ⊆ tcRefs τ sig :=
  ⟨binary_bufs_sub .., unary_bufs_sub .., unary_bufs_sub .., binary_bufs_sub .., unary_bufs_sub .., reshape_bufs_sub ..,
    unary_bufs_sub .., reshape_bufs_sub .., unary_bufs_sub .., unary_bufs_sub .., unary_bufs_sub .., binary_bufs_sub ..,
    unary_bufs_sub .., reshape_bufs_sub .., unary_bufs_sub .., reshape_bufs_sub .., unary_bufs_sub .., unary_bufs_sub ..,
    binary_bufs_sub .., unary_bufs_sub .., unary_bufs_sub .., binary_bufs_sub .., unary_bufs_sub .., reshape_bufs_sub ..,
    unary_bufs_sub .., reshape_bufs_sub .., unary_bufs_sub .., unary_bufs_sub .., unary_bufs_sub .., binary_bufs_sub ..,
    unary_bufs_sub .., reshape_bufs_sub .., unary_bufs_sub .., reshape_bufs_sub .., unary_bufs_sub .., unary_bufs_sub ..,
    binary_bufs_sub .., unary_bufs_sub .., unary_bufs_sub .., binary_bufs_sub .., unary_bufs_sub .., unary_bufs_sub ..,
    unary_bufs_sub .., unary_bufs_sub .., binary_bufs_sub .., reshape_bufs_sub .., unary_bufs_sub .., unary_bufs_sub ..,
    unary_bufs_sub .., unary_bufs_sub .., binary_bufs_sub .., reshape_bufs_sub .., unary_bufs_sub .., unary_bufs_sub ..,
    unary_bufs_sub .., unary_bufs_sub .., binary_bufs_sub .., reshape_bufs_sub .., binary_bufs_sub .., unary_bufs_sub ..,
    binary_bufs_sub .., binary_bufs_sub .., binary_bufs_sub ..⟩

/-- Every operation of the program touches TensorCore buffers only: the three windows' lists concatenated. -/
theorem ops_sub : (ops : List (HloOp τ sig (Elt F))).Forall fun op => op.bufs ⊆ tcRefs τ sig :=
  List.forall_append.2 ⟨List.forall_append.2 ⟨ops0_sub, ops1_sub⟩, ops2_sub⟩

/-- On every device, for any float values, from any memory with zero counters: every weakly fair execution of @main on
    the TensorCores terminates, and every final state has each TensorCore buffer at the fold of the 202 operations over
    the launch contents. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  One-step equations of the reference program's fold. Write W for the buffers' contents after all 202 operations from
  contents V. The program is in single-assignment form: each buffer is written by one operation, after the operations
  that write its operands, and by none later. So W at a buffer is that one operation's function of W at its operands:
  cut the list at the operation, name the fold of the operations before it, and read the buffer and its operands through
  the operations from there on, none of which writes any of them except the operation itself.
-/
import proofs.«133033_j23373212024916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list, from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole fold, window by window. -/
theorem after_ops (V : Valuation τ sig (Elt F)) : after ops V = after ops2 (after ops1 (after ops0 V)) := by
  show after ((ops0 ++ ops1) ++ ops2) V = _
  rw [after_append, after_append]

/-- A fold cut at any position. -/
theorem after_cut (k : Nat) (l : List (HloOp τ sig (Elt F))) (V : Valuation τ sig (Elt F)) :
    after l V = after (l.drop k) (after (l.take k) V) := by
  rw [← after_append, List.take_append_drop]

set_option maxRecDepth 16384 in
/-- No operation writes the input rows. -/
theorem stage_main_arg0 (V : Valuation τ sig (Elt F)) :
    after ops V (main_arg0 : DevRef τ sig)
      = V (main_arg0 : DevRef τ sig) := by
  rw [after_ops]
  simp only [ops0, ops1, ops2]
  after_results_simp

set_option maxRecDepth 16384 in
/-- No operation writes the weights. -/
theorem stage_main_arg1 (V : Valuation τ sig (Elt F)) :
    after ops V (main_arg1 : DevRef τ sig)
      = V (main_arg1 : DevRef τ sig) := by
  rw [after_ops]
  simp only [ops0, ops1, ops2]
  after_results_simp

set_option maxRecDepth 16384 in
/-- The constant 16×16 0/1 matrix. -/
theorem stage_main_cst (V : Valuation τ sig (Elt F)) :
    after ops V (main_cst : DevRef τ sig)
      = fun i => FloatOps.ofBits .f32 (lit0 (S16x16.rowMajor i)) := by
  rw [after_ops]
  simp only [ops0, ops1, ops2]
  after_results_simp
  rfl

set_option maxRecDepth 16384 in
/-- The constant 16×4 sign table. -/
theorem stage_main_cst_0 (V : Valuation τ sig (Elt F)) :
    after ops V (main_cst_0 : DevRef τ sig)
      = fun i => FloatOps.ofBits .f32 (lit1 (S16x4.rowMajor i)) := by
  rw [after_ops, after_cut 1 ops0]
  generalize after (List.take 1 ops0) V = V'
  simp only [ops0, ops1, ops2, List.drop_succ_cons, List.drop_zero]
  after_results_simp
  rfl

set_option maxRecDepth 16384 in
/-- The row norm's zero. -/
theorem stage_main_call0_cst (V : Valuation τ sig (Elt F)) :
    after ops V (main_call0_cst : DevRef τ sig)
      = constant S_ .f32 0x00000000#32 := by
  rw [after_ops, after_cut 3 ops0]
  generalize after (List.take 3 ops0) V = V'
  simp only [ops0, ops1, ops2, List.drop_succ_cons, List.drop_zero]
  after_results_simp
  rfl

set_option maxRecDepth 16384 in
/-- The squares of the input's entries. -/
theorem stage_main_call0_v0 (V : Valuation τ sig (Elt F)) :
    after ops V (main_call0_v0 : DevRef τ sig)
      = mulf (V (main_arg0 : DevRef τ sig)) (V (main_arg0 : DevRef τ sig)) := by
  have h : after ops V (main_call0_v0 : DevRef τ sig) = mulf (after ops V (main_arg0 : DevRef τ sig)) (after ops V (main_arg0 : DevRef τ sig)) := by
    rw [after_ops, after_cut 2 ops0]
    generalize after (List.take 2 ops0) V = V'
    simp only [ops0, ops1, ops2, List.drop_succ_cons, List.drop_zero]
    after_results_simp
    rfl
  rw [h, stage_main_arg0]

set_option maxRecDepth 16384 in
/-- Each row's sum of squares. -/
theorem stage_main_call0_v1 (V : Valuation τ sig (Elt F)) :
    after ops V (main_call0_v1 : DevRef τ sig)
      = Host.reduceAdd (after ops V (main_call0_v0 : DevRef τ sig)) (constant S_ .f32 0x00000000#32) reducesTo_S4194304x16_S4194304_d1 h_S_ := by
  have h : after ops V (main_call0_v1 : DevRef τ sig) = Host.reduceAdd (after ops V (main_call0_v0 : DevRef τ sig)) (after ops V (main_call0_cst : DevRef τ sig)) reducesTo_S4194304x16_S4194304_d1 h_S_ := by
    rw [after_ops, after_cut 4 ops0]
    generalize after (List.take 4 ops0) V = V'
    simp only [ops0, ops1, ops2, List.drop_succ_cons, List.drop_zero]
    after_results_simp
    rfl
  rw [h, stage_main_call0_cst]

set_option maxRecDepth 16384 in
/-- The sums of squares as a column. -/
theorem stage_main_call0_v2 (V : Valuation τ sig (Elt F)) :
    after ops V (main_call0_v2 : DevRef τ sig)
      = broadcastInDim S4194304x1 ![0] bcast_S4194304_S4194304x1_0 (after ops V (main_call0_v1 : DevRef τ sig)) := by
  rw [after_ops, after_cut 5 ops0]
  generalize after (List.take 5 ops0) V = V'
  simp only [ops0, ops1, ops2, List.drop_succ_cons, List.drop_zero]
  after_results_simp
  rfl

set_option maxRecDepth 16384 in
/-- Each row's norm: the square root of its sum of squares. -/
theorem stage_main_v0 (V : Valuation τ sig (Elt F)) :
    after ops V (main_v0 : DevRef τ sig)
      = Host.sqrt (after ops V (main_call0_v2 : DevRef τ sig)) := by
  rw [after_ops, after_cut 6 ops0]
  generalize after (List.take 6 ops0) V = V'
  simp only [ops0, ops1, ops2, List.drop_succ_cons, List.drop_zero]
  after_results_simp
  rfl

set_option maxRecDepth 16384 in
/-- The norms spread along the rows. -/
theorem stage_main_v1 (V : Valuation τ sig (Elt F)) :
    after ops V (main_v1 : DevRef τ sig)
      = broadcastInDim S4194304x16 ![0, 1] bcast_S4194304x1_S4194304x16_0_1 (after ops V (main_v0 : DevRef τ sig)) := by
  rw [after_ops, after_cut 7 ops0]
  generalize after (List.take 7 ops0) V = V'
  simp only [ops0, ops1, ops2, List.drop_succ_cons, List.drop_zero]
  after_results_simp

set_option maxRecDepth 16384 in
/-- The normalised rows: each entry over its row's norm. -/
theorem stage_main_v2 (V : Valuation τ sig (Elt F)) :
    after ops V (main_v2 : DevRef τ sig)
      = Host.divf (V (main_arg0 : DevRef τ sig)) (after ops V (main_v1 : DevRef τ sig)) := by
  have h : after ops V (main_v2 : DevRef τ sig) = Host.divf (after ops V (main_arg0 : DevRef τ sig)) (after ops V (main_v1 : DevRef τ sig)) := by
    rw [after_ops, after_cut 8 ops0]
    generalize after (List.take 8 ops0) V = V'
    simp only [ops0, ops1, ops2, List.drop_succ_cons, List.drop_zero]
    after_results_simp
  rw [h, stage_main_arg0]

set_option maxRecDepth 16384 in
/-- The first layer's matrix: the constant matrix times the first Kronecker product. -/
theorem stage_main_v82 (V : Valuation τ sig (Elt F)) :
    after ops V (main_v82 : DevRef τ sig)
      = Host.dotGeneral dot_S16x16_S16x16_S16x16_1_0_0_1_n_n none (after ops V (main_cst : DevRef τ sig)) (after ops V (main_v81 : DevRef τ sig)) := by
  rw [after_ops, after_cut 40 ops1]
  generalize after (List.take 40 ops1) (after ops0 V) = V'
  simp only [ops1, ops2, List.drop_succ_cons, List.drop_zero]
  after_results_simp

set_option maxRecDepth 16384 in
/-- The first layer's matrix, transposed. -/
theorem stage_main_v83 (V : Valuation τ sig (Elt F)) :
    after ops V (main_v83 : DevRef τ sig)
      = transpose S16x16 [1, 0] (after ops V (main_v82 : DevRef τ sig)) transposes_S16x16_S16x16_1_0 := by
  rw [after_ops, after_cut 41 ops1]
  generalize after (List.take 41 ops1) (after ops0 V) = V'
  simp only [ops1, ops2, List.drop_succ_cons, List.drop_zero]
  after_results_simp

set_option maxRecDepth 16384 in
/-- The normalised rows times the first layer's transpose. -/
theorem stage_main_v84 (V : Valuation τ sig (Elt F)) :
    after ops V (main_v84 : DevRef τ sig)
      = Host.dotGeneral dot_S4194304x16_S16x16_S4194304x16_1_0_0_1_n_n none (after ops V (main_v2 : DevRef τ sig)) (after ops V (main_v83 : DevRef τ sig)) := by
  rw [after_ops, after_cut 42 ops1]
  generalize after (List.take 42 ops1) (after ops0 V) = V'
  simp only [ops1, ops2, List.drop_succ_cons, List.drop_zero]
  after_results_simp

set_option maxRecDepth 16384 in
/-- The second layer's matrix: the constant matrix times the second Kronecker product. -/
theorem stage_main_v160 (V : Valuation τ sig (Elt F)) :
    after ops V (main_v160 : DevRef τ sig)
      = Host.dotGeneral dot_S16x16_S16x16_S16x16_1_0_0_1_n_n none (after ops V (main_cst : DevRef τ sig)) (after ops V (main_v159 : DevRef τ sig)) := by
  rw [after_ops, after_cut 58 ops2]
  generalize after (List.take 58 ops2) (after ops1 (after ops0 V)) = V'
  simp only [ops2, List.drop_succ_cons, List.drop_zero]
  after_results_simp

set_option maxRecDepth 16384 in
/-- The second layer's matrix, transposed. -/
theorem stage_main_v161 (V : Valuation τ sig (Elt F)) :
    after ops V (main_v161 : DevRef τ sig)
      = transpose S16x16 [1, 0] (after ops V (main_v160 : DevRef τ sig)) transposes_S16x16_S16x16_1_0 := by
  rw [after_ops, after_cut 59 ops2]
  generalize after (List.take 59 ops2) (after ops1 (after ops0 V)) = V'
  simp only [ops2, List.drop_succ_cons, List.drop_zero]
  after_results_simp

set_option maxRecDepth 16384 in
/-- Then times the second layer's transpose. -/
theorem stage_main_v162 (V : Valuation τ sig (Elt F)) :
    after ops V (main_v162 : DevRef τ sig)
      = Host.dotGeneral dot_S4194304x16_S16x16_S4194304x16_1_0_0_1_n_n none (after ops V (main_v84 : DevRef τ sig)) (after ops V (main_v161 : DevRef τ sig)) := by
  rw [after_ops, after_cut 60 ops2]
  generalize after (List.take 60 ops2) (after ops1 (after ops0 V)) = V'
  simp only [ops2, List.drop_succ_cons, List.drop_zero]
  after_results_simp

set_option maxRecDepth 16384 in
/-- The entries squared. -/
theorem stage_main_v163 (V : Valuation τ sig (Elt F)) :
    after ops V (main_v163 : DevRef τ sig)
      = mulf (after ops V (main_v162 : DevRef τ sig)) (after ops V (main_v162 : DevRef τ sig)) := by
  rw [after_ops, after_cut 61 ops2]
  generalize after (List.take 61 ops2) (after ops1 (after ops0 V)) = V'
  simp only [ops2, List.drop_succ_cons, List.drop_zero]
  after_results_simp

set_option maxRecDepth 16384 in
/-- The result: the squares contracted with the sign table. -/
theorem stage_main_v164 (V : Valuation τ sig (Elt F)) :
    after ops V (main_v164 : DevRef τ sig)
      = Host.dotGeneral dot_S4194304x16_S16x4_S4194304x4_1_0_0_1_n_n none (after ops V (main_v163 : DevRef τ sig)) (after ops V (main_cst_0 : DevRef τ sig)) := by
  rw [after_ops, after_cut 62 ops2]
  generalize after (List.take 62 ops2) (after ops1 (after ops0 V)) = V'
  simp only [ops2, List.drop_succ_cons, List.drop_zero]
  after_results_simp

end Cert.ReferenceIdeal.RefRun

end
-- ==== Proof.SpecDefs.lean ====
/-
  The two programs' result, entry by entry, as formulas on the extended reals.

  A row of the input is a vector `x` of 16 extended reals.  The kernel scales it by the reciprocal square root of its
  sum of squares, the reference divides it by the square root of that sum; the scaled row is multiplied by one
  16×16 matrix (the kernel: the product of the two layers' matrices, formed first) or by the two layers' matrices one
  after the other (the reference); the entries are squared and contracted with the 16×4 table of signs.
-/
import Idealize.ShloMosaic.PureOps.Ideal

noncomputable section

open scoped BigOperators

namespace Cert.Spec

open Idealize.ShloMosaic

/-- The kernel's normalised row: `x i · rsqrt (∑ k, x k · x k)`. -/
def kerRow (x : Fin 16 → EReal) (i : Fin 16) : EReal := x i * Ideal.rsqrt (∑ k : Fin 16, x k * x k)

/-- The reference's normalised row: `x i / sqrt (∑ k, x k · x k)`. -/
def refRow (x : Fin 16 → EReal) (i : Fin 16) : EReal := Ideal.div (x i) (Ideal.sqrt (∑ k : Fin 16, x k * x k))

/-- A row vector times a 16×16 matrix. -/
def vecMat (s : Fin 16 → EReal) (A : Fin 16 → Fin 16 → EReal) (j : Fin 16) : EReal := ∑ i : Fin 16, s i * A i j

/-- The product of two 16×16 matrices. -/
def matMat (A B : Fin 16 → Fin 16 → EReal) (i j : Fin 16) : EReal := ∑ l : Fin 16, A i l * B l j

/-- The squared entries of a row contracted with the 16×4 table. -/
def expect (s : Fin 16 → EReal) (Z : Fin 16 → Fin 4 → EReal) (q : Fin 4) : EReal := ∑ j : Fin 16, (s j * s j) * Z j q

/-- One entry of the kernel's result: the row scaled, times ONE matrix `M`, squared, contracted with `Z`. -/
def kerOut (x : Fin 16 → EReal) (M : Fin 16 → Fin 16 → EReal) (Z : Fin 16 → Fin 4 → EReal) (q : Fin 4) : EReal :=
  expect (vecMat (kerRow x) M) Z q

/-- One entry of the reference's result: the row scaled, times `A`, times `B`, squared, contracted with `Z`. -/
def refOut (x : Fin 16 → EReal) (A B : Fin 16 → Fin 16 → EReal) (Z : Fin 16 → Fin 4 → EReal) (q : Fin 4) : EReal :=
  expect (vecMat (vecMat (refRow x) A) B) Z q

end Cert.Spec

end
-- ==== Proof.KernelBody.lean ====
/-
  One entry of the block the kernel's body stores.

  The body reads a block x of 4096 rows of 16 entries, a 16×16 matrix M and a 16×4 table Z.  Row r of the
  block is scaled by the reciprocal square root of its own sum of squares, the scaled row is multiplied by M, each
  of the 16 entries of the product is squared, and the squares are contracted with column q of Z.  Both matrix
  products accumulate into a zero block, which contributes nothing; changes of float format are the identity on
  the extended reals.  So entry (r, q) of the stored block is Cert.Spec.kerOut of row r, M and Z at q.
-/
import proofs.«133033_j23373212024916_1_alg».proof.Proof.SpecDefs
import proofs.«133033_j23373212024916_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.KVal

open Idealize.ShloMosaic Idealize.ShloMosaic.ValueIdx Cert.KernelIdeal Cert.KernelIdeal.Gen

/-! ## The operations that are not entry by entry, each read at one index -/

/-- The sum along the 16 lanes of a [4096,16] vector, read at row r: the sum of that row's entries. -/
theorem laneSum_apply (v : FVec Ideal S4096x16 .f32) (h : S4096x16.Reduces [1] S4096) (hφ : FKind.Formats .f32)
    (hacc : (0x00000000#32 : BitVec 32) = FKind.add.neutral .f32 hφ) (r : Fin 4096) :
    multiReduction .add [1] S4096 v 0x00000000#32 h hφ hacc (ix1 r) = ∑ k : Fin 16, v (ix2 r k) := by
  refine (Ideal.multiReduction_add_single v _ h hφ hacc (ix1 r)).trans ?_
  refine Finset.sum_congr rfl fun k _ => congrArg v ?_
  funext a
  apply Fin.ext
  match a with
  | ⟨0, _⟩ => rfl
  | ⟨1, _⟩ => rfl

/-- A [4096] vector viewed as a [4096,1] column reads, at row r, its entry r. -/
theorem column_apply {α : Type} (v : S4096.Idx → α) (h : S4096.ShapeCasts S4096x1) (r : Fin 4096) (z : Fin 1) :
    shapeCast S4096x1 v h (ix2 r z) = v (ix1 r) := by
  refine shapeCast_apply v h (ix2 r z) (ix1 r) ?_
  rw [Shape.rowMajor_val_one, Shape.rowMajor_val_two]
  show r.val = r.val * 1 + z.val
  have hz : z.val < 1 := z.isLt
  omega

/-- A [4096,1] column spread over 16 lanes reads, at row r and any lane, the column's entry at row r. -/
theorem spread_apply {α : Type} (v : S4096x1.Idx → α) (h : S4096x1.Broadcasts S4096x16) (r : Fin 4096) (i : Fin 16) :
    broadcastTo S4096x16 v h (ix2 r i) = v (ix2 r (0 : Fin 1)) := by
  refine broadcastTo_apply v h (ix2 r i) (ix2 r (0 : Fin 1)) fun a => ?_
  match a with
  | ⟨0, _⟩ => rfl
  | ⟨1, _⟩ => rfl

/-! ## The two matrix products, read at one index -/

/-- The left operand's index of the first product: row of the result, … -/
theorem lhsA_0 (j : S4096x16.Idx) (k : dot_S4096x16_S16x16_S4096x16_1_0_0_1_n_n.contr.Idx) :
    (dot_S4096x16_S16x16_S4096x16_1_0_0_1_n_n.lhsIdx j k 0).val = (j 0).val := by
  unfold DotDims.lhsIdx
  rw [dif_neg (show ¬(0 : Fin S4096x16.rank) ∈ dot_S4096x16_S16x16_S4096x16_1_0_0_1_n_n.lhsBatch by decide),
    dif_pos (show (0 : Fin S4096x16.rank) ∈ dot_S4096x16_S16x16_S4096x16_1_0_0_1_n_n.lhsNonContracting by decide)]
  rfl
/-- … the right operand's: column of the result. -/
theorem rhsA_1 (j : S4096x16.Idx) (k : dot_S4096x16_S16x16_S4096x16_1_0_0_1_n_n.contr.Idx) :
    (dot_S4096x16_S16x16_S4096x16_1_0_0_1_n_n.rhsIdx j k 1).val = (j 1).val := by
  unfold DotDims.rhsIdx
  rw [dif_neg (show ¬(1 : Fin S16x16.rank) ∈ dot_S4096x16_S16x16_S4096x16_1_0_0_1_n_n.rhsBatch by decide),
    dif_pos (show (1 : Fin S16x16.rank) ∈ dot_S4096x16_S16x16_S4096x16_1_0_0_1_n_n.rhsNonContracting by decide)]
  rfl

/-- A [4096,16] block times a 16×16 matrix into a zero block, at (r, j): the sum over the 16 shared coordinates. -/
theorem prodA_apply (a : FVec Ideal S4096x16 .bf16) (b : FVec Ideal S16x16 .bf16) (r : Fin 4096) (j : Fin 16) :
    matmul dot_S4096x16_S16x16_S4096x16_1_0_0_1_n_n none a b (constant (F := Ideal) S4096x16 .f32 0x00000000#32) (ix2 r j)
      = ∑ i : Fin 16, a (ix2 r i) * b (ix2 i j) := by
  simp only [matmul]
  rw [Ideal.matmul_constant_zero_apply,
    ← Equiv.sum_comp (contrEquiv1 dot_S4096x16_S16x16_S4096x16_1_0_0_1_n_n 16 rfl rfl).symm]
  refine Finset.sum_congr rfl fun k _ => ?_
  have hk := contrEquiv1_symm_val dot_S4096x16_S16x16_S4096x16_1_0_0_1_n_n 16 rfl rfl k
  have el : dot_S4096x16_S16x16_S4096x16_1_0_0_1_n_n.lhsIdx (ix2 r j)
      ((contrEquiv1 dot_S4096x16_S16x16_S4096x16_1_0_0_1_n_n 16 rfl rfl).symm k) = ix2 r k :=
    funext fun c => Fin.ext (by
      match c with
      | ⟨0, _⟩ => exact lhsA_0 _ _
      | ⟨1, _⟩ => exact (dot_S4096x16_S16x16_S4096x16_1_0_0_1_n_n.lhsIdx_val_of_single rfl _ _).trans hk)
  have er : dot_S4096x16_S16x16_S4096x16_1_0_0_1_n_n.rhsIdx (ix2 r j)
      ((contrEquiv1 dot_S4096x16_S16x16_S4096x16_1_0_0_1_n_n 16 rfl rfl).symm k) = ix2 k j :=
    funext fun c => Fin.ext (by
      match c with
      | ⟨0, _⟩ => exact (dot_S4096x16_S16x16_S4096x16_1_0_0_1_n_n.rhsIdx_val_of_single rfl _ _).trans hk
      | ⟨1, _⟩ => exact rhsA_1 _ _)
  rw [el, er]

/-- The left operand's index of the second product: row of the result, … -/
theorem lhsB_0 (j : S4096x4.Idx) (k : dot_S4096x16_S16x4_S4096x4_1_0_0_1_n_n.contr.Idx) :
    (dot_S4096x16_S16x4_S4096x4_1_0_0_1_n_n.lhsIdx j k 0).val = (j 0).val := by
  unfold DotDims.lhsIdx
  rw [dif_neg (show ¬(0 : Fin S4096x16.rank) ∈ dot_S4096x16_S16x4_S4096x4_1_0_0_1_n_n.lhsBatch by decide),
    dif_pos (show (0 : Fin S4096x16.rank) ∈ dot_S4096x16_S16x4_S4096x4_1_0_0_1_n_n.lhsNonContracting by decide)]
  rfl
/-- … the right operand's: column of the result. -/
theorem rhsB_1 (j : S4096x4.Idx) (k : dot_S4096x16_S16x4_S4096x4_1_0_0_1_n_n.contr.Idx) :
    (dot_S4096x16_S16x4_S4096x4_1_0_0_1_n_n.rhsIdx j k 1).val = (j 1).val := by
  unfold DotDims.rhsIdx
  rw [dif_neg (show ¬(1 : Fin S16x4.rank) ∈ dot_S4096x16_S16x4_S4096x4_1_0_0_1_n_n.rhsBatch by decide),
    dif_pos (show (1 : Fin S16x4.rank) ∈ dot_S4096x16_S16x4_S4096x4_1_0_0_1_n_n.rhsNonContracting by decide)]
  rfl

/-- A [4096,16] block times the 16×4 table into a zero block, at (r, q): the sum over the 16 shared coordinates. -/
theorem prodB_apply (a : FVec Ideal S4096x16 .bf16) (b : FVec Ideal S16x4 .bf16) (r : Fin 4096) (q : Fin 4) :
    matmul dot_S4096x16_S16x4_S4096x4_1_0_0_1_n_n none a b (constant (F := Ideal) S4096x4 .f32 0x00000000#32) (ix2 r q)
      = ∑ j : Fin 16, a (ix2 r j) * b (ix2 j q) := by
  simp only [matmul]
  rw [Ideal.matmul_constant_zero_apply,
    ← Equiv.sum_comp (contrEquiv1 dot_S4096x16_S16x4_S4096x4_1_0_0_1_n_n 16 rfl rfl).symm]
  refine Finset.sum_congr rfl fun k _ => ?_
  have hk := contrEquiv1_symm_val dot_S4096x16_S16x4_S4096x4_1_0_0_1_n_n 16 rfl rfl k
  have el : dot_S4096x16_S16x4_S4096x4_1_0_0_1_n_n.lhsIdx (ix2 r q)
      ((contrEquiv1 dot_S4096x16_S16x4_S4096x4_1_0_0_1_n_n 16 rfl rfl).symm k) = ix2 r k :=
    funext fun c => Fin.ext (by
      match c with
      | ⟨0, _⟩ => exact lhsB_0 _ _
      | ⟨1, _⟩ => exact (dot_S4096x16_S16x4_S4096x4_1_0_0_1_n_n.lhsIdx_val_of_single rfl _ _).trans hk)
  have er : dot_S4096x16_S16x4_S4096x4_1_0_0_1_n_n.rhsIdx (ix2 r q)
      ((contrEquiv1 dot_S4096x16_S16x4_S4096x4_1_0_0_1_n_n 16 rfl rfl).symm k) = ix2 k q :=
    funext fun c => Fin.ext (by
      match c with
      | ⟨0, _⟩ => exact (dot_S4096x16_S16x4_S4096x4_1_0_0_1_n_n.rhsIdx_val_of_single rfl _ _).trans hk
      | ⟨1, _⟩ => exact rhsB_1 _ _)
  rw [el, er]

/-! ## The stored block at one index -/

/-- Entry (r, i) of the scaled block: the input's entry times the reciprocal square root of row r's sum of
    squares. -/
theorem scaled_apply (x0 : Vec Ideal S4096x16 .f32) (h : S4096x16.Reduces [1] S4096) (hφ : FKind.Formats .f32)
    (hacc : (0x00000000#32 : BitVec 32) = FKind.add.neutral .f32 hφ) (hc : S4096.ShapeCasts S4096x1)
    (hb : S4096x1.Broadcasts S4096x16) (r : Fin 4096) (i : Fin 16) :
    mulf (F := Ideal) (φ := .f32) x0 (broadcastTo S4096x16
        (rsqrt (F := Ideal) (φ := .f32) (shapeCast S4096x1 (multiReduction (F := Ideal) .add [1] S4096 (mulf (F := Ideal) (φ := .f32) x0 x0) 0x00000000#32 h hφ hacc) hc)) hb)
        (ix2 r i)
      = Cert.Spec.kerRow (fun k : Fin 16 => x0 (ix2 r k)) i := by
  unfold Cert.Spec.kerRow
  refine (mulf_apply _ _ _).trans (congrArg (x0 (ix2 r i) * ·) ?_)
  refine (spread_apply _ hb r i).trans ?_
  show Ideal.rsqrt (shapeCast S4096x1 _ hc (ix2 r (0 : Fin 1))) = _
  refine congrArg Ideal.rsqrt ?_
  refine (column_apply _ hc r 0).trans ?_
  refine (laneSum_apply _ h hφ hacc r).trans ?_
  rfl

/-- THE STORED BLOCK AT (r, q): Cert.Spec.kerOut of row r of the input block, the matrix and the table. -/
theorem pay_apply (x0 : Vec Ideal S4096x16 .f32) (x1 : Vec Ideal S16x16 .f32) (x2 : Vec Ideal S16x4 .f32)
    (r : Fin 4096) (q : Fin 4) :
    k0_pay1 (F := Ideal) x0 x1 x2 (ix2 r q)
      = Cert.Spec.kerOut (fun i : Fin 16 => x0 (ix2 r i)) (fun i j : Fin 16 => x1 (ix2 i j))
          (fun (j : Fin 16) (q' : Fin 4) => x2 (ix2 j q')) q := by
  unfold k0_pay1 Cert.Spec.kerOut Cert.Spec.expect Cert.Spec.vecMat
  refine (prodB_apply _ _ r q).trans ?_
  refine Finset.sum_congr rfl fun j _ => ?_
  have e11 : ∀ j' : Fin 16, (matmul dot_S4096x16_S16x16_S4096x16_1_0_0_1_n_n none
        (truncf .bf16 (mulf (F := Ideal) (φ := .f32) x0 (broadcastTo S4096x16
          (rsqrt (F := Ideal) (φ := .f32) (shapeCast S4096x1 (multiReduction (F := Ideal) .add [1] S4096 (mulf (F := Ideal) (φ := .f32) x0 x0) 0x00000000#32 reduces_S4096x16_S4096 (.inl rfl) rfl) shapeCasts_S4096_S4096x1))
          broadcasts_S4096x1_S4096x16)) bitsLt_bf16_f32)
        (truncf .bf16 (shapeCast S16x16 x1 shapeCasts_S16x16_S16x16) bitsLt_bf16_f32)
        (constant (F := Ideal) S4096x16 .f32 0x00000000#32) : FVec Ideal S4096x16 .f32) (ix2 r j')
      = ∑ i : Fin 16, Cert.Spec.kerRow (fun k : Fin 16 => x0 (ix2 r k)) i * x1 (ix2 i j') := fun j' => by
    refine (prodA_apply _ _ r j').trans ?_
    refine Finset.sum_congr rfl fun i _ => ?_
    rw [shapeCast_self]
    exact congrArg (· * x1 (ix2 i j')) (scaled_apply x0 _ _ _ _ _ r i)
  exact congrArg (· * x2 (ix2 j q)) (congrArg₂ (· * ·) (e11 j) (e11 j))

end Cert.KernelIdeal.KVal

end
-- ==== Proof.KernelArray.lean ====
/-
  From the blocks the body stores to one entry of the output array.

  The grid has 1024 points.  Point t stages rows 4096·t … 4096·t + 4095 of the [4194304,16] input, the whole
  16×16 matrix and the whole 16×4 table, and writes back rows 4096·t … 4096·t + 4095 of the [4194304,4] output.
  Entry (r, q) of the block written at point t depends only on row r of the staged input block, that is on row
  4096·t + r of the input array; so the blocks written back are the blocks of ONE function of the arrays, and since
  row p of the output lies in the block of point p / 4096, the output array ends holding that function.
-/
import proofs.«133033_j23373212024916_1_alg».proof.Proof.KernelBody
import proofs.«133033_j23373212024916_1_alg».proof.Proof.Gen.KernelIdeal.Value
import Idealize.ShloMosaic.Lib.Pipeline.Value
import Idealize.ShloMosaic.Lib.Tactic

noncomputable section

open scoped BigOperators

namespace Cert.KernelIdeal.KVal

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ)

theorem zeroOff : (![0, 0] : Fin 2 → Nat) = fun _ => 0 := funext fun a => by fin_cases a <;> rfl

/-- The output array as one function of the arrays the region finds: entry (p, q) is Cert.Spec.kerOut of row p of
    the input, the matrix and the table, at q. -/
def outArr (c : Dev nD) : S4194304x4.Idx → EReal := fun i =>
  Cert.Spec.kerOut (fun k : Fin 16 => (V m c main_arg0 : S4194304x16.Idx → EReal) (ix2 (i 0 : Fin 4194304) k))
    (fun a b : Fin 16 => (V m c main_v158 : S16x16.Idx → EReal) (ix2 a b))
    (fun (j : Fin 16) (q' : Fin 4) => (V m c main_cst_0 : S16x4.Idx → EReal) (ix2 j q')) (i 1 : Fin 4)

/-- The block indices at point t, decided over the 1024 points: the input's and the output's row block is t, every
    other block index is 0. -/
theorem blockIdx : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## Each staged block read off its array -/

/-- Entry (r, i) of the input block at point t is entry (4096·t + r, i) of the input array. -/
theorem inBlock_apply (c : Dev nD) (t : Fin cfg0.N) (r : Fin 4096) (i : Fin 16) (p : Fin 4194304)
    (hp : p.val = t.val * 4096 + r.val) :
    (iblk m c 0 t : Vec Ideal S4096x16 .f32) (ix2 r i) = (V m c main_arg0 : S4194304x16.Idx → EReal) (ix2 p i) := by
  show (V m c main_arg0 : S4194304x16.Idx → EReal) (((cfg0.win 0).blk t).view.emb (ix2 r i)) = _
  refine congrArg (V m c main_arg0 : S4194304x16.Idx → EReal) ?_
  obtain ⟨e0, e1, -⟩ := blockIdx t
  funext a
  apply Fin.ext
  match a with
  | ⟨0, _⟩ => show win0_0.index t (0 : Fin 2) * 4096 + 1 * r.val = p.val; rw [e0, hp]; omega
  | ⟨1, _⟩ => show win0_0.index t (1 : Fin 2) * 16 + 1 * i.val = i.val; rw [e1]; omega

/-- The matrix's block at any point is the matrix. -/
theorem matBlock_apply (c : Dev nD) (t : Fin cfg0.N) (a b : Fin 16) :
    (iblk m c 1 t : Vec Ideal S16x16 .f32) (ix2 a b) = (V m c main_v158 : S16x16.Idx → EReal) (ix2 a b) := by
  show (V m c main_v158 : S16x16.Idx → EReal) (((cfg0.win 1).blk t).view.emb (ix2 a b)) = _
  refine congrArg (V m c main_v158 : S16x16.Idx → EReal) ?_
  obtain ⟨-, -, -, -, e4, e5, -⟩ := blockIdx t
  funext d
  apply Fin.ext
  match d with
  | ⟨0, _⟩ => show win0_1.index t (0 : Fin 2) * 16 + 1 * a.val = a.val; rw [e4]; omega
  | ⟨1, _⟩ => show win0_1.index t (1 : Fin 2) * 16 + 1 * b.val = b.val; rw [e5]; omega

/-- The table's block at any point is the table. -/
theorem tabBlock_apply (c : Dev nD) (t : Fin cfg0.N) (j : Fin 16) (q : Fin 4) :
    (iblk m c 2 t : Vec Ideal S16x4 .f32) (ix2 j q) = (V m c main_cst_0 : S16x4.Idx → EReal) (ix2 j q) := by
  show (V m c main_cst_0 : S16x4.Idx → EReal) (((cfg0.win 2).blk t).view.emb (ix2 j q)) = _
  refine congrArg (V m c main_cst_0 : S16x4.Idx → EReal) ?_
  obtain ⟨-, -, -, -, -, -, e6, e7⟩ := blockIdx t
  funext d
  apply Fin.ext
  match d with
  | ⟨0, _⟩ => show win0_2.index t (0 : Fin 2) * 16 + 1 * j.val = j.val; rw [e6]; omega
  | ⟨1, _⟩ => show win0_2.index t (1 : Fin 2) * 4 + 1 * q.val = q.val; rw [e7]; omega

/-- Entry (r, q) of the output's block at point t sits at (4096·t + r, q) of the output array. -/
theorem outBlock_emb (t : Fin cfg0.N) (r : Fin 4096) (q : Fin 4) (p : Fin 4194304)
    (hp : p.val = t.val * 4096 + r.val) :
    (((cfg0.win 3).blk t).view.emb (ix2 r q) : S4194304x4.Idx) = ix2 p q := by
  obtain ⟨-, -, e2, e3, -⟩ := blockIdx t
  funext a
  apply Fin.ext
  match a with
  | ⟨0, _⟩ => show win0_3.index t (0 : Fin 2) * 4096 + 1 * r.val = p.val; rw [e2, hp]; omega
  | ⟨1, _⟩ => show win0_3.index t (1 : Fin 2) * 4 + 1 * q.val = q.val; rw [e3]; omega

/-! ## What a point writes back, and the array after the last point -/

/-- WHAT POINT t WRITES BACK is block t of outArr. -/
theorem flushed_eq (c : Dev nD) (t : Fin cfg0.N) :
    (dats m 0 c).flushed 3 t = ((cfg0.win 3).blk t).view.read (Elt Ideal) (outArr m c) := by
  rw [Cert.KernelIdeal.Value.flushed3]
  unfold out0_3
  rw [View.canon_unit_zero zeroOff]
  simp only [View.ld_unit_zero (S := S4096x16) zeroOff, View.ld_unit_zero (S := S16x16) zeroOff,
    View.ld_unit_zero (S := S16x4) zeroOff]
  refine funext fun (y : S4096x4.Idx) => ?_
  obtain ⟨r, q, rfl⟩ : ∃ (r : Fin 4096) (q : Fin 4), y = ix2 r q := ⟨y 0, y 1, eq_ix2 y⟩
  have hN : cfg0.N = 1024 := N_0
  have hp : t.val * 4096 + r.val < 4194304 := by have := t.isLt; have := r.isLt; omega
  show k0_pay1 (F := Ideal) (iblk m c 0 t) (iblk m c 1 t) (iblk m c 2 t) (ix2 r q)
    = outArr m c (((cfg0.win 3).blk t).view.emb (ix2 r q))
  rw [outBlock_emb t r q ⟨t.val * 4096 + r.val, hp⟩ rfl]
  refine (pay_apply (iblk m c 0 t) (iblk m c 1 t) (iblk m c 2 t) r q).trans ?_
  have h0 : (fun i : Fin 16 => (iblk m c 0 t : Vec Ideal S4096x16 .f32) (ix2 r i))
      = fun i : Fin 16 => (V m c main_arg0 : S4194304x16.Idx → EReal) (ix2 (⟨t.val * 4096 + r.val, hp⟩ : Fin 4194304) i) :=
    funext fun i => inBlock_apply m c t r i ⟨t.val * 4096 + r.val, hp⟩ rfl
  have h1 : (fun a b : Fin 16 => (iblk m c 1 t : Vec Ideal S16x16 .f32) (ix2 a b))
      = fun a b : Fin 16 => (V m c main_v158 : S16x16.Idx → EReal) (ix2 a b) :=
    funext fun a => funext fun b => matBlock_apply m c t a b
  have h2 : (fun (j : Fin 16) (q' : Fin 4) => (iblk m c 2 t : Vec Ideal S16x4 .f32) (ix2 j q'))
      = fun (j : Fin 16) (q' : Fin 4) => (V m c main_cst_0 : S16x4.Idx → EReal) (ix2 j q') :=
    funext fun j => funext fun q' => tabBlock_apply m c t j q'
  rw [h0, h1, h2]
  rfl

/-- An index of the output array is in point t's block iff each coordinate is in the block's range on its axis. -/
theorem mem_block (t : Fin cfg0.N) (i : S4194304x4.Idx) :
    i ∈ ((cfg0.win 3).blk t).view.set ↔ ∀ a : Fin 2, win0_3.index t a * S4096x4.size a ≤ (i a).val ∧ (i a).val < win0_3.index t a * S4096x4.size a + S4096x4.size a := by
  show i ∈ ((View.whole main_v159).slice (win0_3.rect t)).set ↔ _
  rw [View.set_slice_whole, Rect.mem_set_unit]
  exact Iff.rfl

/-- Row p of the output array lies in the block of point p / 4096, which writes back. -/
theorem covered (i : S4194304x4.Idx) :
    ∃ t : Fin cfg0.N, (cfg0.win 3).flush t = true ∧ i ∈ ((cfg0.win 3).blk t).view.set := by
  have hN : cfg0.N = 1024 := N_0
  have h0 : (i 0).val < 4194304 := idx2_lt0 i
  have h1 : (i 1).val < 4 := idx2_lt1 i
  have ht : (i 0).val / 4096 < cfg0.N := by rw [hN]; omega
  obtain ⟨-, -, e2, e3, -⟩ := blockIdx ⟨(i 0).val / 4096, ht⟩
  refine ⟨⟨(i 0).val / 4096, ht⟩, flush0_3 _, ?_⟩
  rw [mem_block]
  intro a
  match a with
  | ⟨0, _⟩ =>
    show win0_3.index ⟨(i 0).val / 4096, ht⟩ (0 : Fin 2) * 4096 ≤ (i 0).val
      ∧ (i 0).val < win0_3.index ⟨(i 0).val / 4096, ht⟩ (0 : Fin 2) * 4096 + 4096
    rw [e2]
    show (i 0).val / 4096 * 4096 ≤ (i 0).val ∧ (i 0).val < (i 0).val / 4096 * 4096 + 4096
    omega
  | ⟨1, _⟩ =>
    show win0_3.index ⟨(i 0).val / 4096, ht⟩ (1 : Fin 2) * 4 ≤ (i 1).val
      ∧ (i 1).val < win0_3.index ⟨(i 0).val / 4096, ht⟩ (1 : Fin 2) * 4 + 4
    rw [e3]
    omega

/-- THE OUTPUT ARRAY after the run is outArr of the arrays the region finds. -/
theorem final (c : Dev nD) : (dats m 0 c).arrAt 3 cfg0.N = outArr m c :=
  (dats m 0 c).arrAt_eq_of_cover 3 (outArr m c) (fun t _ => flushed_eq m c t) covered

/-- ONE ENTRY of the output array after the run: Cert.Spec.kerOut of row p of the input array, the matrix and the
    table as the region finds them, at q. -/
theorem kernel_out (c : Dev nD) (p : Fin 4194304) (q : Fin 4) :
    (dats m 0 c).arrAt 3 cfg0.N (ix2 p q)
      = Cert.Spec.kerOut (fun i : Fin 16 => (V m c main_arg0 : S4194304x16.Idx → EReal) (ix2 p i))
          (fun i j : Fin 16 => (V m c main_v158 : S16x16.Idx → EReal) (ix2 i j))
          (fun (j : Fin 16) (q' : Fin 4) => (V m c main_cst_0 : S16x4.Idx → EReal) (ix2 j q')) q := by
  rw [final m c]
  rfl

end Cert.KernelIdeal.KVal

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.RefFormula.lean ====
/-
  The reference's composition of host operations, read at one entry of its result.

  With s(p,i) = x(p,i) / √(∑ₖ x(p,k)²) — the row sum printed as a host reduction from 0, laid out as a column, its square
  root spread over the row — the reference forms T = (s · R1ᵀ) · R2ᵀ, squares it entry by entry and contracts the
  squares with the table Z.  Each matrix product at an entry is the sum over the contracted coordinate; a transpose
  swaps the two coordinates.  So entry (p,q) of the result is `Cert.Spec.refOut` of row p, of the transposed matrices
  and of Z.  The statement is generic in the shape evidence the printed operations carry.
-/
import proofs.«133033_j23373212024916_1_alg».proof.Proof.SpecDefs
import proofs.«133033_j23373212024916_1_alg».proof.Proof.LibPlainDot
import Idealize.ShloMosaic.Lib.IdealHost
import Idealize.ShloMosaic.Lib.ValueLayout
import Idealize.ShloMosaic.Lib.Pipeline.Value
import Idealize.ShloMosaic.PureOps.Ideal.Laws

noncomputable section

open scoped BigOperators

namespace Cert.RefFormula

open Idealize.ShloMosaic Idealize.ShloMosaic.ValueIdx

abbrev SX : Shape := ⟨2, ![4194304, 16]⟩
abbrev SR : Shape := ⟨1, ![4194304]⟩
abbrev SC : Shape := ⟨2, ![4194304, 1]⟩
abbrev SM : Shape := ⟨2, ![16, 16]⟩
abbrev SZ : Shape := ⟨2, ![16, 4]⟩
abbrev SO : Shape := ⟨2, ![4194304, 4]⟩
abbrev S0 : Shape := ⟨0, ![]⟩

/-- A vector of row quantities laid out as a column: entry (p, 0) is the vector's entry p. -/
theorem column_apply {α : Type} (v : SR.Idx → α) (h : SR.BroadcastsInDim SC ![0]) (p : Fin 4194304) (u : Fin 1) :
    broadcastInDim SC ![0] h v (ix2 p u) = v (ix1 p) := by
  refine broadcastInDim_apply _ h v _ (ix1 p) fun ax => ?_
  match ax with
  | ⟨0, _⟩ =>
    show p.val = if (4194304 : ℕ) = 1 then 0 else p.val
    rw [if_neg (by decide)]

/-- A column spread over the 16 entries of each row: entry (p, i) is the column's entry of row p. -/
theorem spread_apply {α : Type} (v : SC.Idx → α) (h : SC.BroadcastsInDim SX ![0, 1]) (p : Fin 4194304) (i : Fin 16) :
    broadcastInDim SX ![0, 1] h v (ix2 p i) = v (ix2 p (0 : Fin 1)) := by
  refine broadcastInDim_apply _ h v _ (ix2 p (0 : Fin 1)) fun ax => ?_
  match ax with
  | ⟨0, _⟩ =>
    show p.val = if (4194304 : ℕ) = 1 then 0 else p.val
    rw [if_neg (by decide)]
  | ⟨1, _⟩ =>
    show 0 = if (1 : ℕ) = 1 then 0 else i.val
    rw [if_pos rfl]

/-- The host's square root at an entry. -/
theorem hostSqrt_apply {s : Shape} {φ : FTy} (v : FVec Ideal s φ) (i : s.Idx) : Host.sqrt v i = Ideal.sqrt (v i) := rfl

/-- The normalised input: every entry divided by the square root of its row's sum of squares. -/
def normed (x : FVec Ideal SX .f32) (hred : SX.ReducesTo [1] SR) (hu : 0 < S0.numel)
    (hb1 : SR.BroadcastsInDim SC ![0]) (hb2 : SC.BroadcastsInDim SX ![0, 1]) : FVec Ideal SX .f32 :=
  Host.divf x (broadcastInDim SX ![0, 1] hb2 (Host.sqrt (broadcastInDim SC ![0] hb1
    (Host.reduceAdd (mulf x x) (constant (F := Ideal) S0 .f32 0x00000000#32) hred hu))))

/-- The normalised input at an entry is the specification's normalised row. -/
theorem normed_apply (x : FVec Ideal SX .f32) (hred : SX.ReducesTo [1] SR) (hu : 0 < S0.numel)
    (hb1 : SR.BroadcastsInDim SC ![0]) (hb2 : SC.BroadcastsInDim SX ![0, 1]) (p : Fin 4194304) (i : Fin 16) :
    normed x hred hu hb1 hb2 (ix2 p i) = Cert.Spec.refRow (fun i => x (ix2 p i)) i := by
  have hr : SX.Reduces [1] SR := by decide
  unfold normed Cert.Spec.refRow
  rw [hostDivf_apply, spread_apply, hostSqrt_apply, column_apply, hostReduceAdd_apply, Ideal.hostReduceAdd_single _ hr, constant_apply,
    Ideal.ofBits_zero_f32, zero_add]
  refine congrArg (fun s => Ideal.div (x (ix2 p i)) (Ideal.sqrt s)) (Finset.sum_congr rfl fun k _ => ?_)
  have e : hr.lift (ix1 p) k = ix2 p k := by
    funext a; match a with | ⟨0, _⟩ => rfl | ⟨1, _⟩ => rfl
  rw [mulf_apply, e]
  rfl

/-- The row-times-transposed-matrix product at an entry. -/
theorem dotT_apply (s : FVec Ideal SX .f32) (R : FVec Ideal SM .f32) (ht : SM.Transposes [1, 0] SM)
    (d2 : DotDims SX SM SX) (hd2 : d2 = DotDims.plain 4194304 16 16) (p : Fin 4194304) (j : Fin 16) :
    Host.dotGeneral d2 none s (transpose SM [1, 0] R ht) (ix2 p j)
      = Cert.Spec.vecMat (fun i => s (ix2 p i)) (fun i l => R (ix2 l i)) j := by
  unfold Cert.Spec.vecMat
  refine (dotGeneral_plain_apply d2 hd2 none .single s _ p j).trans ?_
  exact Finset.sum_congr rfl fun i _ => by rw [transpose_ix2_apply]

/-- The product of two transposed 16×16 matrices at an entry: the kernel's one matrix, formed on the host. -/
theorem dotTT_apply (K1 K2 : FVec Ideal SM .f32) (ht : SM.Transposes [1, 0] SM)
    (d : DotDims SM SM SM) (hd : d = DotDims.plain 16 16 16) (i j : Fin 16) :
    Host.dotGeneral d none (transpose SM [1, 0] K1 ht) (transpose SM [1, 0] K2 ht) (ix2 i j)
      = Cert.Spec.matMat (fun i l => K1 (ix2 l i)) (fun l j => K2 (ix2 j l)) i j := by
  unfold Cert.Spec.matMat
  refine (dotGeneral_plain_apply d hd none .single _ _ i j).trans ?_
  exact Finset.sum_congr rfl fun l _ => by rw [transpose_ix2_apply, transpose_ix2_apply]

/-- One entry of the reference's result. -/
theorem ref_entry (x : FVec Ideal SX .f32) (R1 R2 : FVec Ideal SM .f32) (Z : FVec Ideal SZ .f32)
    (hred : SX.ReducesTo [1] SR) (hu : 0 < S0.numel)
    (hb1 : SR.BroadcastsInDim SC ![0]) (hb2 : SC.BroadcastsInDim SX ![0, 1]) (ht : SM.Transposes [1, 0] SM)
    (d2 : DotDims SX SM SX) (hd2 : d2 = DotDims.plain 4194304 16 16)
    (d3 : DotDims SX SZ SO) (hd3 : d3 = DotDims.plain 4194304 16 4) (p : Fin 4194304) (q : Fin 4) :
    Host.dotGeneral d3 none
        (mulf (Host.dotGeneral d2 none (Host.dotGeneral d2 none (normed x hred hu hb1 hb2) (transpose SM [1, 0] R1 ht))
                (transpose SM [1, 0] R2 ht))
              (Host.dotGeneral d2 none (Host.dotGeneral d2 none (normed x hred hu hb1 hb2) (transpose SM [1, 0] R1 ht))
                (transpose SM [1, 0] R2 ht))) Z (ix2 p q)
      = Cert.Spec.refOut (fun i => x (ix2 p i)) (fun i l => R1 (ix2 l i)) (fun l j => R2 (ix2 j l))
          (fun j q' => Z (ix2 j q')) q := by
  unfold Cert.Spec.refOut Cert.Spec.expect
  refine (dotGeneral_plain_apply d3 hd3 none .single _ Z p q).trans ?_
  refine Finset.sum_congr rfl fun j _ => ?_
  rw [mulf_apply, dotT_apply _ R2 ht d2 hd2]
  have h1 : (fun i => Host.dotGeneral d2 none (normed x hred hu hb1 hb2) (transpose SM [1, 0] R1 ht) (ix2 p i))
      = Cert.Spec.vecMat (Cert.Spec.refRow fun i => x (ix2 p i)) (fun i l => R1 (ix2 l i)) := by
    funext i
    rw [dotT_apply _ R1 ht d2 hd2]
    exact congrArg (fun s => Cert.Spec.vecMat s (fun i l => R1 (ix2 l i)) i) (funext fun i => normed_apply x hred hu hb1 hb2 p i)
  rw [h1]

end Cert.RefFormula

end
-- ==== Proof.RefBridge.lean ====
/-
  The reference's result buffer, after all of its host operations, read at one entry: the stage equations compose to
  the normalisation, the two products with the transposed layer matrices, the squares and the contraction with the
  sign table, which at entry (p, q) is the specification's reference formula of row p.
-/
import proofs.«133033_j23373212024916_1_alg».proof.Proof.RefStages
import proofs.«133033_j23373212024916_1_alg».proof.Proof.RefFormula

noncomputable section

namespace Cert.ReferenceIdeal.RefRun

open Cert.ReferenceIdeal Cert.ReferenceIdeal.Gen Idealize.ShloMosaic Idealize.ShloMosaic.TcCoe Idealize.SL.Sem
open Idealize.ShloMosaic.StableHlo Idealize.ShloMosaic.ValueIdx

set_option maxRecDepth 16384 in
/-- One entry of the reference's result, in terms of the input row, the two layer matrices and the sign table as the
    program's buffers hold them. -/
theorem ref_out (V : Valuation τ sig (Elt Ideal)) (p : Fin 4194304) (q : Fin 4) :
    (after ops V (main_v164 : DevRef τ sig) : S4194304x4.Idx → EReal) (ix2 p q)
      = Cert.Spec.refOut (fun i => (V (main_arg0 : DevRef τ sig) : S4194304x16.Idx → EReal) (ix2 p i))
          (fun i l => (after ops V (main_v82 : DevRef τ sig) : S16x16.Idx → EReal) (ix2 l i))
          (fun l j => (after ops V (main_v160 : DevRef τ sig) : S16x16.Idx → EReal) (ix2 j l))
          (fun j q' => (after ops V (main_cst_0 : DevRef τ sig) : S16x4.Idx → EReal) (ix2 j q')) q := by
  rw [stage_main_v164, stage_main_v163, stage_main_v162, stage_main_v161, stage_main_v84, stage_main_v83, stage_main_v2,
    stage_main_v1, stage_main_v0, stage_main_call0_v2, stage_main_call0_v1, stage_main_call0_v0]
  exact Cert.RefFormula.ref_entry (V (main_arg0 : DevRef τ sig)) (after ops V (main_v82 : DevRef τ sig))
    (after ops V (main_v160 : DevRef τ sig)) (after ops V (main_cst_0 : DevRef τ sig))
    reducesTo_S4194304x16_S4194304_d1 h_S_ bcast_S4194304_S4194304x1_0 bcast_S4194304x1_S4194304x16_0_1
    transposes_S16x16_S16x16_1_0 dot_S4194304x16_S16x16_S4194304x16_1_0_0_1_n_n rfl
    dot_S4194304x16_S16x4_S4194304x4_1_0_0_1_n_n rfl p q

end Cert.ReferenceIdeal.RefRun

end
-- ==== Proof.SpecLaws.lean ====
/-
  The algebra that joins the two programs, on the extended reals.

  (1) For a row of real numbers whose sum of squares is positive, scaling by the reciprocal square root of that sum
      is dividing by its square root: the sum is a positive real `S`, `rsqrt S = (√S)⁻¹`, `√S ≠ 0`, and a quotient by a
      nonzero real is the product with its inverse.
  (2) For a real row vector `s` and real 16×16 matrices `A`, `B`: `s · (A · B) = (s · A) · B`.  On the extended reals
      multiplication does not distribute over sums in general (an infinite factor breaks it), so the law is proved
      on the reals, where both sides are `∑ i, ∑ l, s i · A i l · B l j`, and carried over by the coercion, which is
      additive and multiplicative on reals.
  Together: one entry of the kernel's result is that entry of the reference's.
-/
import proofs.«133033_j23373212024916_1_alg».proof.Proof.SpecDefs

noncomputable section

open scoped BigOperators

namespace Cert.Spec

open Idealize.ShloMosaic

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row vector of reals times a matrix of reals is a row vector of reals, the real product. -/
theorem vecMat_coe (σ : Fin 16 → ℝ) (α : Fin 16 → Fin 16 → ℝ) (j : Fin 16) :
    vecMat (fun i => (σ i : EReal)) (fun i l => (α i l : EReal)) j = ((∑ i : Fin 16, σ i * α i j : ℝ) : EReal) := by
  unfold vecMat
  rw [coe_sum]
  exact Finset.sum_congr rfl fun i _ => (EReal.coe_mul _ _).symm

/-- The product of two matrices of reals is the real product. -/
theorem matMat_coe (α β : Fin 16 → Fin 16 → ℝ) (i j : Fin 16) :
    matMat (fun i l => (α i l : EReal)) (fun l j => (β l j : EReal)) i j = ((∑ l : Fin 16, α i l * β l j : ℝ) : EReal) := by
  unfold matMat
  rw [coe_sum]
  exact Finset.sum_congr rfl fun l _ => (EReal.coe_mul _ _).symm

/-- (2) Associativity of the row-times-matrix-times-matrix product, for real entries. -/
theorem vecMat_matMat (s : Fin 16 → EReal) (A B : Fin 16 → Fin 16 → EReal)
    (hs : ∀ i, ∃ r : ℝ, s i = (r : EReal)) (hA : ∀ i l, ∃ r : ℝ, A i l = (r : EReal))
    (hB : ∀ l j, ∃ r : ℝ, B l j = (r : EReal)) :
    vecMat s (matMat A B) = vecMat (vecMat s A) B := by
  choose σ hσ using hs
  choose α hα using hA
  choose β hβ using hB
  obtain rfl : s = fun i => (σ i : EReal) := funext hσ
  obtain rfl : A = fun i l => (α i l : EReal) := funext fun i => funext fun l => hα i l
  obtain rfl : B = fun l j => (β l j : EReal) := funext fun l => funext fun j => hβ l j
  funext j
  have h1 : (matMat (fun i l => (α i l : EReal)) fun l j => (β l j : EReal))
      = fun i j => (((∑ l : Fin 16, α i l * β l j : ℝ)) : EReal) := funext fun i => funext fun j => matMat_coe α β i j
  have h2 : (vecMat (fun i => (σ i : EReal)) fun i l => (α i l : EReal))
      = fun l => (((∑ i : Fin 16, σ i * α i l : ℝ)) : EReal) := funext fun l => vecMat_coe σ α l
  rw [h1, h2, vecMat_coe, vecMat_coe]
  congr 1
  simp only [Finset.mul_sum, Finset.sum_mul]
  rw [Finset.sum_comm]
  exact Finset.sum_congr rfl fun l _ => Finset.sum_congr rfl fun i _ => by ring

/-- The sum of squares of a real row is the coercion of the real sum of squares. -/
theorem sumsq_coe (ρ : Fin 16 → ℝ) :
    (∑ k : Fin 16, (ρ k : EReal) * (ρ k : EReal)) = ((∑ k : Fin 16, ρ k * ρ k : ℝ) : EReal) := by
  rw [coe_sum]
  exact Finset.sum_congr rfl fun k _ => (EReal.coe_mul _ _).symm

/-- (1) For a real row with positive sum of squares the two normalisations agree. -/
theorem kerRow_eq_refRow (x : Fin 16 → EReal) (hx : ∀ i, ∃ r : ℝ, x i = (r : EReal))
    (hpos : 0 < ∑ k : Fin 16, x k * x k) : kerRow x = refRow x := by
  choose ρ hρ using hx
  obtain rfl : x = fun i => (ρ i : EReal) := funext hρ
  funext i
  unfold kerRow refRow
  rw [sumsq_coe] at hpos ⊢
  have hS : 0 < ∑ k : Fin 16, ρ k * ρ k := by exact_mod_cast hpos
  have hsq : Real.sqrt (∑ k : Fin 16, ρ k * ρ k) ≠ 0 := (Real.sqrt_pos.mpr hS).ne'
  rw [Ideal.rsqrt_coe, Ideal.sqrt_coe, if_neg (not_lt.mpr hS.le), if_neg hS.ne', if_neg (not_lt.mpr hS.le),
    Ideal.div_coe hsq, one_div]

/-- The normalised row of a real row with positive sum of squares is real. -/
theorem refRow_real (x : Fin 16 → EReal) (hx : ∀ i, ∃ r : ℝ, x i = (r : EReal))
    (hpos : 0 < ∑ k : Fin 16, x k * x k) : ∀ i, ∃ r : ℝ, refRow x i = (r : EReal) := by
  choose ρ hρ using hx
  obtain rfl : x = fun i => (ρ i : EReal) := funext hρ
  intro i
  unfold refRow
  rw [sumsq_coe] at hpos ⊢
  have hS : 0 < ∑ k : Fin 16, ρ k * ρ k := by exact_mod_cast hpos
  have hsq : Real.sqrt (∑ k : Fin 16, ρ k * ρ k) ≠ 0 := (Real.sqrt_pos.mpr hS).ne'
  rw [Ideal.sqrt_coe, if_neg (not_lt.mpr hS.le), Ideal.div_coe hsq]
  exact ⟨ρ i * (1 / Real.sqrt (∑ k : Fin 16, ρ k * ρ k)), (EReal.coe_mul _ _).symm⟩

/-- One entry of the kernel's result, with the kernel's matrix the product of the two layers' matrices, is that entry
    of the reference's result: real row of positive sum of squares, real matrices; the table `Z` is arbitrary. -/
theorem kerOut_eq_refOut (x : Fin 16 → EReal) (A B : Fin 16 → Fin 16 → EReal) (Z : Fin 16 → Fin 4 → EReal) (q : Fin 4)
    (hx : ∀ i, ∃ r : ℝ, x i = (r : EReal)) (hpos : 0 < ∑ k : Fin 16, x k * x k)
    (hA : ∀ i l, ∃ r : ℝ, A i l = (r : EReal)) (hB : ∀ l j, ∃ r : ℝ, B l j = (r : EReal)) :
    kerOut x (matMat A B) Z q = refOut x A B Z q := by
  unfold kerOut refOut
  rw [kerRow_eq_refRow x hx hpos, vecMat_matMat (refRow x) A B (refRow_real x hx hpos) hA hB]

end Cert.Spec

end
-- ==== Proof.Bridge.lean ====
/-
  The two programs' results are the same array.

  Entry (p, q) of the kernel's result is the specification's kernel formula of row p of x, of the kernel's one matrix
  and of the sign table; the kernel's matrix is, entry by entry, the product of the transposed layer matrices.  Entry
  (p, q) of the reference's result is the reference formula of the same row, the same two layer matrices (the
  reference's host chain computes them by the same operations from the same weights) and the same table.  Under the
  precondition the row is real with a positive sum of squares and the layer matrices are real, so the two formulas
  agree.
-/
import proofs.«133033_j23373212024916_1_alg».proof.Proof.KernelArray
import proofs.«133033_j23373212024916_1_alg».proof.Proof.RefBridge
import proofs.«133033_j23373212024916_1_alg».proof.Proof.SpecLaws

set_option pp.maxSteps 5000
set_option pp.deepTerms false

noncomputable section

namespace Cert.Bridge

open Idealize.ShloMosaic Idealize.ShloMosaic.TcCoe Idealize.SL.Sem Idealize.ShloMosaic.StableHlo Idealize.ShloMosaic.ValueIdx

/-- The results agree at every entry.  The arrays the two programs hold are named by variables: `x`, `Mk`, `K79`,
    `K155`, `Zk` on the kernel's side (the input, the one matrix, the two layer matrices, the table), `x'`, `R82`,
    `R160`, `Zr`, `out` on the reference's.  Given: the input is real with positive row sums of squares; the kernel's
    one matrix is the product of the transposed layer matrices; the layer matrices are real; the reference's input,
    layer matrices and table are the kernel's. -/
theorem result_eq_of
    (m : (ℓ : Loc Cert.KernelIdeal.nD Cert.KernelIdeal.τ Cert.KernelIdeal.sig) → Buf (Elt Ideal) ℓ)
    (V' : Valuation Cert.ReferenceIdeal.τ Cert.ReferenceIdeal.sig (Elt Ideal)) (c : Dev 1)
    (x : FVec Ideal Cert.KernelIdeal.S4194304x16 .f32) (Mk K79 K155 : FVec Ideal Cert.KernelIdeal.S16x16 .f32)
    (Zk : FVec Ideal Cert.KernelIdeal.S16x4 .f32)
    (ex : Cert.KernelIdeal.Gen.V m c Cert.KernelIdeal.main_arg0 = x)
    (eMk : Cert.KernelIdeal.Gen.V m c Cert.KernelIdeal.main_v158 = Mk)
    (eZk : Cert.KernelIdeal.Gen.V m c Cert.KernelIdeal.main_cst_0 = Zk)
    (x' : FVec Ideal Cert.ReferenceIdeal.S4194304x16 .f32) (R82 R160 : FVec Ideal Cert.ReferenceIdeal.S16x16 .f32)
    (Zr : FVec Ideal Cert.ReferenceIdeal.S16x4 .f32) (out : FVec Ideal Cert.ReferenceIdeal.S4194304x4 .f32)
    (ex' : V' (Cert.ReferenceIdeal.main_arg0 : DevRef Cert.ReferenceIdeal.τ Cert.ReferenceIdeal.sig) = x')
    (e82 : after Cert.ReferenceIdeal.RefRun.ops V' (Cert.ReferenceIdeal.main_v82 : DevRef Cert.ReferenceIdeal.τ Cert.ReferenceIdeal.sig) = R82)
    (e160 : after Cert.ReferenceIdeal.RefRun.ops V' (Cert.ReferenceIdeal.main_v160 : DevRef Cert.ReferenceIdeal.τ Cert.ReferenceIdeal.sig) = R160)
    (eZr : after Cert.ReferenceIdeal.RefRun.ops V' (Cert.ReferenceIdeal.main_cst_0 : DevRef Cert.ReferenceIdeal.τ Cert.ReferenceIdeal.sig) = Zr)
    (eout : after Cert.ReferenceIdeal.RefRun.ops V' (Cert.ReferenceIdeal.main_v164 : DevRef Cert.ReferenceIdeal.τ Cert.ReferenceIdeal.sig) = out)
    (hx : ∀ i, ∃ r : ℝ, x i = (r : EReal))
    (hpos : ∀ p : Fin 4194304, 0 < ∑ k : Fin 16, x (ix2 p k) * x (ix2 p k))
    (hM : Mk = Host.dotGeneral (F := Ideal) Cert.KernelIdeal.dot_S16x16_S16x16_S16x16_1_0_0_1_n_n none
          (transpose Cert.KernelIdeal.S16x16 [1, 0] K79 Cert.KernelIdeal.Facts₀.transposes_S16x16_S16x16_1_0)
          (transpose Cert.KernelIdeal.S16x16 [1, 0] K155 Cert.KernelIdeal.Facts₀.transposes_S16x16_S16x16_1_0))
    (hA : ∀ i, ∃ r : ℝ, K79 i = (r : EReal)) (hB : ∀ i, ∃ r : ℝ, K155 i = (r : EReal))
    (h0 : ∀ i, x' i = x i) (h82 : ∀ i, R82 i = K79 i) (h160 : ∀ i, R160 i = K155 i) (hZ : ∀ i, Zr i = Zk i)
    (idx : Cert.ReferenceIdeal.S4194304x4.Idx) :
    out idx = (Cert.KernelIdeal.Gen.dats m 0 c).arrAt 3 Cert.KernelIdeal.cfg0.N idx := by
  obtain ⟨p, q, rfl⟩ : ∃ (p : Fin 4194304) (q : Fin 4), idx = ix2 p q := ⟨idx 0, idx 1, eq_ix2 idx⟩
  have hk := Cert.KernelIdeal.KVal.kernel_out m c p q
  rw [ex, eMk, eZk] at hk
  have hr := Cert.ReferenceIdeal.RefRun.ref_out V' p q
  rw [ex', e82, e160, eZr, eout] at hr
  rw [hk, hr]
  have eM : (fun i j : Fin 16 => Mk (ix2 i j))
      = Cert.Spec.matMat (fun i l => K79 (ix2 l i)) (fun l j => K155 (ix2 j l)) := by
    funext i j
    rw [hM]
    exact Cert.RefFormula.dotTT_apply _ _ _ _ rfl i j
  rw [eM, Cert.Spec.kerOut_eq_refOut _ _ _ _ _ (fun i => hx (ix2 p i)) (hpos p) (fun i l => hA (ix2 l i)) (fun l j => hB (ix2 j l))]
  congr 1
  · funext i; exact h0 (ix2 p i)
  · funext i l; exact h82 (ix2 l i)
  · funext l j; exact h160 (ix2 j l)
  · funext j q'; exact hZ (ix2 j q')

end Cert.Bridge

end
-- ==== Proof.PreDecode.lean ====
/-
  What the precondition says of the inputs, entry by entry, at the extended reals.

  The precondition is the conjunction of three all-quantified comparisons: |x| < +∞ at every entry of x, |w| < +∞ at
  every entry of the weights, and 0 < ∑ₖ x(p,k)·x(p,k) for every row p.  An extended real whose absolute value is below
  +∞ is a real number; the row sum printed by the host reduction is the initial value 0 plus the sum over the row's 16
  coordinates.
-/
import proofs.«133033_j23373212024916_1_alg».proof.Pre_finite_inputs
import Idealize.ShloMosaic.Lib.ReduceAll
import Idealize.ShloMosaic.Lib.IdealHost
import Idealize.ShloMosaic.PureOps.Ideal.Laws
import Idealize.ShloMosaic.Lib.ValueIdx

noncomputable section
open scoped BigOperators
namespace Cert.PreDecode
open Idealize.ShloMosaic Idealize.ShloMosaic.ValueIdx Cert.Pre_finite_inputs

variable [hF : Cert.Pre_finite_inputs.Facts]
open Cert.Pre_finite_inputs.Facts

/-- The scalar shape has one index. -/
instance : Subsingleton S_.Idx := ⟨fun a b => funext fun d => d.elim0⟩

/-- The word of +∞ denotes +∞. -/
theorem inf_word : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison |a| < +∞ answering 1 makes `a` a real number. -/
theorem real_of_cmp (a : EReal) (h : Ideal.cmp .olt (max a (-a)) (Ideal.ofBits .f32 0x7F800000#32) = 1#1) :
    ∃ r : ℝ, a = (r : EReal) := by
  rw [inf_word] at h
  refine real_of_abs_lt_top a ?_
  by_contra hn
  simp [Ideal.cmp, hn] at h

/-- The comparison a > 0 answering 1 makes `a` positive. -/
theorem pos_of_cmp (a : EReal) (h : Ideal.cmp .ogt a (Ideal.ofBits .f32 0x00000000#32) = 1#1) : 0 < a := by
  rw [Ideal.ofBits_zero_f32] at h
  by_contra hn
  simp [Ideal.cmp, hn] at h

/-- One entry of the elementwise comparison against the splat of +∞. -/
theorem real_at {s : Shape} (x : FVec Ideal s .f32) (hb : S_.BroadcastsInDim s ![]) (i : s.Idx)
    (h : cmpf .olt (Host.absf x) (broadcastInDim s ![] hb (constant S_ .f32 0x7F800000#32)) i = 1#1) :
    ∃ r : ℝ, x i = (r : EReal) := by
  rw [cmpf_apply, broadcastInDim_scalar_apply, constant_apply] at h
  exact real_of_cmp (x i) h

/-- One entry of the elementwise comparison against the splat of 0. -/
theorem pos_at {s : Shape} (y : FVec Ideal s .f32) (hb : S_.BroadcastsInDim s ![]) (i : s.Idx)
    (h : cmpf .ogt y (broadcastInDim s ![] hb (constant S_ .f32 0x00000000#32)) i = 1#1) : 0 < y i := by
  rw [cmpf_apply, broadcastInDim_scalar_apply, constant_apply] at h
  exact pos_of_cmp (y i) h

/-- The precondition, decoded: every entry of both inputs is a real number, and every row of `x` has a positive sum of
    squares. -/
theorem decode (x : FVec Ideal S4194304x16 .f32) (w : FVec Ideal S2x4 .f32)
    (h : fn (F := Ideal) x w = fun _ => 1#1) :
    (∀ i, ∃ r : ℝ, x i = (r : EReal)) ∧ (∀ i, ∃ r : ℝ, w i = (r : EReal))
      ∧ ∀ p : Fin 4194304, 0 < ∑ k : Fin 16, x (ix2 p k) * x (ix2 p k) := by
  have h0 := congrFun h ix0
  dsimp only [fn] at h0
  obtain ⟨h12, h3⟩ := IntOp.andi_eq_one.1 h0
  obtain ⟨h1, h2⟩ := IntOp.andi_eq_one.1 h12
  refine ⟨fun i => real_at x _ i (Host.reduce_andi_all _ _ _ _ ix0 h1 i),
    fun i => real_at w _ i (Host.reduce_andi_all _ _ _ _ ix0 h2 i), fun p => ?_⟩
  have hp := pos_at _ _ _ (Host.reduce_andi_all _ _ _ _ ix0 h3 (ix1 p))
  have hr : S4194304x16.Reduces [1] S4194304 := by decide
  rw [hostReduceAdd_apply, Ideal.hostReduceAdd_single _ hr, constant_apply, Ideal.ofBits_zero_f32, zero_add] at hp
  refine lt_of_lt_of_eq hp (Finset.sum_congr rfl fun k _ => ?_)
  have e : hr.lift (ix1 p) k = ix2 p k := by
    funext a; match a with | ⟨0, _⟩ => rfl | ⟨1, _⟩ => rfl
  rw [mulf_apply, e]
  rfl

end Cert.PreDecode
end
-- ==== Proof.HostReal.lean ====
/-
  Entries that are real numbers.

  A family of extended reals is "all real" when every entry is the image of a real number.  The operations that
  build the two layer matrices from the weights keep this property: re-laying operations (broadcast, slice,
  reshape, transpose, joining two pieces) only move entries; negation, product, cosine and sine of reals are reals;
  a contraction is a finite sum of products of reals; the constant one half and a table whose words are all the
  patterns of 0.0 and 1.0 are real.
-/
import Idealize.ShloMosaic.PureOps.Ideal.Laws
import Idealize.ShloMosaic.PureOps.Contract
import Idealize.ShloMosaic.Lib.StableHlo.Run

noncomputable section

open scoped BigOperators

namespace Cert.HostChain

open Idealize.ShloMosaic

/-- The concatenation of two pieces along an axis, as a function of the two pieces. -/
def concat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A concatenation of a literal pair of pieces is that function of them. -/
theorem concatenate_pair {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = concat2 t a s₁ s₂ h x₁ x₂ := rfl

/-- Reads a buffer after a line of host operations as the composed term of the operations that wrote it: each
    operation's result at its own buffer is its function of its operands' contents, at any other buffer what was
    there; a concatenation of two pieces is opened to its pieces, and a transport along a reflexive equation of
    types is dropped. -/
macro "host_chain_results" : tactic =>
  `(tactic| (simp (disch := decide) only [StableHlo.after_cons, StableHlo.after_nil,
      StableHlo.nullary_result', StableHlo.unary_result', StableHlo.binary_result', StableHlo.reshape_result',
      StableHlo.nullary_result_ne', StableHlo.unary_result_ne', StableHlo.binary_result_ne', StableHlo.reshape_result_ne',
      concatenate_pair, cast_eq]))

/-- Every entry of the family is a real number. -/
def AllReal {ι : Type} (v : ι → EReal) : Prop := ∀ i, ∃ r : ℝ, v i = (r : EReal)

/-- A finite sum of real numbers is a real number. -/
theorem exists_real_sum {κ : Type} (s : Finset κ) (f : κ → EReal) (h : ∀ k ∈ s, ∃ r : ℝ, f k = (r : EReal)) :
    ∃ r : ℝ, ∑ k ∈ s, f k = (r : EReal) := by
  classical
  induction s using Finset.induction_on with
  | empty => exact ⟨0, by rw [Finset.sum_empty, EReal.coe_zero]⟩
  | insert a s ha ih =>
    obtain ⟨x, hx⟩ := h a (Finset.mem_insert_self a s)
    obtain ⟨y, hy⟩ := ih (fun k hk => h k (Finset.mem_insert_of_mem hk))
    exact ⟨x + y, by rw [Finset.sum_insert ha, hx, hy, EReal.coe_add]⟩

namespace AllReal

variable {s t : Shape}

/-- A broadcast reads each of its entries from the operand. -/
theorem bcast (dims : Fin s.rank → Fin t.rank) (h : s.BroadcastsInDim t dims) {x : s.Idx → EReal} (hx : AllReal x) :
    AllReal (broadcastInDim t dims h x) := fun _ => hx _

/-- A slice reads each of its entries from the operand. -/
theorem slice (off : Fin s.rank → Nat) {x : s.Idx → EReal} (h : s.Slices off t) (hx : AllReal x) :
    AllReal (extractStridedSlice t off x h) := fun _ => hx _

/-- A reshape reads each of its entries from the operand. -/
theorem reshape {x : s.Idx → EReal} (h : s.ShapeCasts t) (hx : AllReal x) : AllReal (shapeCast t x h) := fun _ => hx _

/-- A transpose reads each of its entries from the operand. -/
theorem transp (perm : List (Fin s.rank)) {x : s.Idx → EReal} (h : s.Transposes perm t) (hx : AllReal x) :
    AllReal (transpose t perm x h) := fun _ => hx _

/-- A concatenation reads each of its entries from one of its pieces. -/
theorem concat (a : Fin t.rank) (xs : List ((s : Shape) × (s.Idx → EReal))) (h : Shape.Concatenates (xs.map (·.1)) t a)
    (hx : ∀ p ∈ xs, AllReal p.2) : AllReal (concatenate t a xs h) := by
  intro j
  unfold concatenate
  exact hx _ (List.getElem_mem _) _

/-- The concatenation of two pieces. -/
theorem concatPair {s₁ s₂ : Shape} (a : Fin t.rank) {x₁ : s₁.Idx → EReal} {x₂ : s₂.Idx → EReal}
    (h : Shape.Concatenates [s₁, s₂] t a)
    (h₁ : AllReal x₁) (h₂ : AllReal x₂) : AllReal (concat2 t a s₁ s₂ h x₁ x₂) :=
  concat a [⟨s₁, x₁⟩, ⟨s₂, x₂⟩] h (fun p hp => by
    rcases List.mem_cons.mp hp with rfl | hp
    · exact h₁
    · rcases List.mem_cons.mp hp with rfl | hp
      · exact h₂
      · exact absurd hp (List.not_mem_nil))

variable {φ : FTy}

/-- The negative of a real is real. -/
theorem neg {x : FVec Ideal s φ} (hx : AllReal x) : AllReal (Host.negf x) := fun i => by
  obtain ⟨a, ha⟩ := hx i
  exact ⟨-a, by show -(x i) = _; rw [ha, EReal.coe_neg]⟩

/-- The product of two reals is real. -/
theorem mul {x y : FVec Ideal s φ} (hx : AllReal x) (hy : AllReal y) : AllReal (mulf x y) := fun i => by
  obtain ⟨a, ha⟩ := hx i
  obtain ⟨b, hb⟩ := hy i
  exact ⟨a * b, by show x i * y i = _; rw [ha, hb, EReal.coe_mul]⟩

/-- The cosine of a real is real. -/
theorem cos {x : FVec Ideal s φ} (hx : AllReal x) : AllReal (Host.cos x) := fun i => by
  obtain ⟨a, ha⟩ := hx i
  exact ⟨Real.cos a, by show Ideal.cos (x i) = _; rw [ha]; rfl⟩

/-- The sine of a real is real. -/
theorem sin {x : FVec Ideal s φ} (hx : AllReal x) : AllReal (Host.sin x) := fun i => by
  obtain ⟨a, ha⟩ := hx i
  exact ⟨Real.sin a, by show Ideal.sin (x i) = _; rw [ha]; rfl⟩

/-- A contraction of two real operands is a finite sum of products of reals. -/
theorem dot {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ x : ℝ, FloatOps.dotGeneral d prec .single l r j = (x : EReal)
  rw [Ideal.dotGeneral_apply]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

/-- The pattern of 1.0 (exponent field 127: a normal number) denotes a real number. -/
theorem ofBits_one_f32 : ∃ r : ℝ, Ideal.ofBits .f32 0x3F800000#32 = (r : EReal) := by
  show ∃ r : ℝ, Ideal.ieee 8 23 (0x3F800000#32 : BitVec 32) = (r : EReal)
  unfold Ideal.ieee
  dsimp only
  rw [if_neg (by decide), if_neg (by decide)]
  exact ⟨_, rfl⟩

/-- The pattern of 0.5 (exponent field 126: a normal number) denotes a real number. -/
theorem ofBits_half_f32 : ∃ r : ℝ, Ideal.ofBits .f32 0x3F000000#32 = (r : EReal) := by
  show ∃ r : ℝ, Ideal.ieee 8 23 (0x3F000000#32 : BitVec 32) = (r : EReal)
  unfold Ideal.ieee
  dsimp only
  rw [if_neg (by decide), if_neg (by decide)]
  exact ⟨_, rfl⟩

/-- The constant one half. -/
theorem half : AllReal (constant (F := Ideal) s .f32 0x3F000000#32) := fun _ => ofBits_half_f32

/-- A table whose every word is the pattern of 0.0 or of 1.0. -/
theorem table {n : Nat} (lit : Fin n → BitVec 32) (g : s.Idx → Fin n)
    (hlit : ∀ k, lit k = 0x00000000#32 ∨ lit k = 0x3F800000#32) :
    AllReal (fun i : s.Idx => FloatOps.ofBits (F := Ideal) .f32 (lit (g i))) := fun i => by
  show ∃ r : ℝ, Ideal.ofBits .f32 (lit (g i)) = (r : EReal)
  rcases hlit (g i) with h | h
  · exact ⟨0, by rw [h, Ideal.ofBits_zero_f32, EReal.coe_zero]⟩
  · rw [h]; exact ofBits_one_f32

end AllReal

end Cert.HostChain

end
-- ==== Proof.HostKernel.lean ====
/-
  The kernel program's host chain, read off its operations.

  Before its one region the kernel's program builds, from the cosines and sines of half the weights, the two
  16×16 layer matrices (each: four 2×2 rotations, Kronecker-multiplied, then multiplied on the left by a constant
  16×16 table of zeros and ones), transposes them and multiplies the transposes.  Here: the product's buffer and the
  sign table's buffer as one operation of the buffers before them, and that every entry of the two layer matrices is
  a real number when every weight is.
-/
import proofs.«133033_j23373212024916_1_alg».proof.Proof.Gen.KernelIdeal.Frame
import proofs.«133033_j23373212024916_1_alg».proof.Proof.HostReal

set_option pp.maxSteps 5000
set_option pp.deepTerms false

noncomputable section

namespace Cert.HostChain

open Idealize.ShloMosaic Idealize.ShloMosaic.TcCoe Idealize.ShloMosaic.StableHlo
open Cert.KernelIdeal Cert.KernelIdeal.Facts₀ Cert.KernelIdeal.Facts

variable (m : (ℓ : Loc nD τ sig) → Buf (Elt Ideal) ℓ) (c : Dev nD)

/-- The matrix the region multiplies by is the product of the two layer matrices' transposes. -/
theorem V_main_v158 :
    (Gen.V m c main_v158 : S16x16.Idx → EReal)
      = Host.dotGeneral (F := Ideal) (φ₁ := .f32) (φ₂ := .f32) dot_S16x16_S16x16_S16x16_1_0_0_1_n_n none
          (transpose (s := S16x16) S16x16 [1, 0] (Gen.V m c main_v79 : S16x16.Idx → EReal) transposes_S16x16_S16x16_1_0)
          (transpose (s := S16x16) S16x16 [1, 0] (Gen.V m c main_v155 : S16x16.Idx → EReal) transposes_S16x16_S16x16_1_0) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp

/-- The table the region contracts with is the constant 16×4 table of signs. -/
theorem V_main_cst_0 :
    (Gen.V m c main_cst_0 : S16x4.Idx → EReal) = fun i => FloatOps.ofBits (F := Ideal) .f32 (lit1 (S16x4.rowMajor i)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

end Cert.HostChain

end
-- ==== Proof.HostKernelReal.lean ====
/-
  The two layer matrices have real entries.

  Each layer matrix of the kernel's program is the constant 16×16 table of zeros and ones contracted with the
  Kronecker product of four 2×2 rotations, whose entries are ± the cosines and sines of half the weights.  If every
  weight is a real number, so is every entry of both matrices: the composed term of the operations that write the
  matrix's buffer is walked from the root, each operation keeping the property.
-/
import proofs.«133033_j23373212024916_1_alg».proof.Proof.Gen.KernelIdeal.Frame
import proofs.«133033_j23373212024916_1_alg».proof.Proof.HostReal

set_option pp.maxSteps 5000
set_option pp.deepTerms false

noncomputable section

namespace Cert.HostChain

open Idealize.ShloMosaic Idealize.ShloMosaic.TcCoe Idealize.ShloMosaic.StableHlo
open Cert.KernelIdeal Cert.KernelIdeal.Facts₀ Cert.KernelIdeal.Facts

variable (m : (ℓ : Loc nD τ sig) → Buf (Elt Ideal) ℓ) (c : Dev nD)

/-- Every word of the 16×16 table is the pattern of 0.0 or of 1.0. -/
theorem lit0_words : ∀ k : Fin 256, lit0 k = 0x00000000#32 ∨ lit0 k = 0x3F800000#32 := by decide

/-- Every entry of the first layer's matrix is a real number when every weight is: the matrix is built from the
    weights by halving, cosine and sine, negation, products, re-laying operations and one contraction with the table of
    zeros and ones. -/
theorem layer0_real
    (hw : ∀ i, ∃ r : ℝ, m ((c.tc : Thread nD τ).loc main_arg1) i = (r : EReal)) :
    ∀ i, ∃ r : ℝ, Gen.V m c main_v79 i = (r : EReal) := by
  have hw' : AllReal (m (c, Proc.devRef .tc main_arg1) : S2x4.Idx → EReal) := hw
  show AllReal (Gen.V m c main_v79 : S16x16.Idx → EReal)
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  host_chain_results
  apply AllReal.dot
  · exact AllReal.table lit0 S16x16.rowMajor lit0_words
  · repeat (with_reducible first
      | exact hw'
      | exact AllReal.half
      | apply AllReal.reshape
      | apply AllReal.mul
      | apply AllReal.bcast
      | apply AllReal.concatPair
      | apply AllReal.slice
      | apply AllReal.neg
      | apply AllReal.cos
      | apply AllReal.sin)

set_option maxHeartbeats 4000000 in  -- the second layer's buffer is read through both layers' operations
/-- Every entry of the second layer's matrix is a real number when every weight is: the matrix is built from the
    weights by halving, cosine and sine, negation, products, re-laying operations and one contraction with the table of
    zeros and ones. -/
theorem layer1_real
    (hw : ∀ i, ∃ r : ℝ, m ((c.tc : Thread nD τ).loc main_arg1) i = (r : EReal)) :
    ∀ i, ∃ r : ℝ, Gen.V m c main_v155 i = (r : EReal) := by
  have hw' : AllReal (m (c, Proc.devRef .tc main_arg1) : S2x4.Idx → EReal) := hw
  show AllReal (Gen.V m c main_v155 : S16x16.Idx → EReal)
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  host_chain_results
  apply AllReal.dot
  · exact AllReal.table lit0 S16x16.rowMajor lit0_words
  · repeat (with_reducible first
      | exact hw'
      | exact AllReal.half
      | apply AllReal.reshape
      | apply AllReal.mul
      | apply AllReal.bcast
      | apply AllReal.concatPair
      | apply AllReal.slice
      | apply AllReal.neg
      | apply AllReal.cos
      | apply AllReal.sin)

end Cert.HostChain

end
-- ==== Proof.HostSame.lean ====
/-
  The host-computed matrices are the same in the two programs. Both build each layer's 16×16 matrix from the weights by
  the same operations in the same order — the half angles' cosines and sines, the four 2×2 rotations, the three Kronecker
  products, the product with the constant 0/1 matrix — over buffers that only differ in their numbering; and both
  state the constant tables word for word. So a buffer of the reference's after its operations, and the corresponding
  buffer of the kernel's program when its region is entered, hold the same composed term of the weights.
-/
import proofs.«133033_j23373212024916_1_alg».proof.Proof.RefStages
import proofs.«133033_j23373212024916_1_alg».proof.Proof.HostReal
import proofs.«133033_j23373212024916_1_alg».proof.Proof.Gen.KernelIdeal.Frame

noncomputable section

namespace Cert.HostSame

open Idealize.ShloMosaic Idealize.ShloMosaic.TcCoe Idealize.SL.Sem Idealize.ShloMosaic.StableHlo Cert.HostChain

/-- The two programs state the 16×16 constant's 256 words alike. -/
theorem lit0_same : Cert.ReferenceIdeal.lit0 = Cert.KernelIdeal.lit0 := by
  funext k
  revert k
  decide

/-- The two programs state the 16×4 sign table's 64 words alike. -/
theorem lit1_same : Cert.ReferenceIdeal.lit1 = Cert.KernelIdeal.lit1 := by
  funext k
  revert k
  decide

set_option maxRecDepth 16384 in
/-- The sign table: the same 64 words in the same row-major order. -/
theorem table_same (m : (ℓ : Loc Cert.KernelIdeal.nD Cert.KernelIdeal.τ Cert.KernelIdeal.sig) → Buf (Elt Ideal) ℓ) (c : Dev 1)
    (V' : Valuation Cert.ReferenceIdeal.τ Cert.ReferenceIdeal.sig (Elt Ideal)) :
    ∀ i : (⟨2, ![16, 4]⟩ : Shape).Idx,
      after (Cert.ReferenceIdeal.RefRun.ops (F := Ideal)) V' (Cert.ReferenceIdeal.main_cst_0 : DevRef Cert.ReferenceIdeal.τ Cert.ReferenceIdeal.sig) i
        = Cert.KernelIdeal.Gen.V m c Cert.KernelIdeal.main_cst_0 i := by
  intro i
  rw [Cert.ReferenceIdeal.RefRun.stage_main_cst_0, lit1_same]
  dsimp only [Cert.KernelIdeal.Gen.V]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    Cert.KernelIdeal.Gen.hostOps0_8, List.flatten_cons, List.flatten_nil, List.append_nil, List.cons_append, List.nil_append]
  host_chain_results

set_option maxRecDepth 65536 in
set_option maxHeartbeats 4000000 in
/-- The first layer's matrix: the same composed term of the weights in both programs. -/
theorem layer0_same (m : (ℓ : Loc Cert.KernelIdeal.nD Cert.KernelIdeal.τ Cert.KernelIdeal.sig) → Buf (Elt Ideal) ℓ) (c : Dev 1)
    (V' : Valuation Cert.ReferenceIdeal.τ Cert.ReferenceIdeal.sig (Elt Ideal))
    (hV : ∀ i : (⟨2, ![2, 4]⟩ : Shape).Idx,
      V' (Cert.ReferenceIdeal.main_arg1 : DevRef Cert.ReferenceIdeal.τ Cert.ReferenceIdeal.sig) i = m ((c.tc : Thread Cert.KernelIdeal.nD Cert.KernelIdeal.τ).loc Cert.KernelIdeal.main_arg1) i) :
    ∀ i : (⟨2, ![16, 16]⟩ : Shape).Idx,
      after (Cert.ReferenceIdeal.RefRun.ops (F := Ideal)) V' (Cert.ReferenceIdeal.main_v82 : DevRef Cert.ReferenceIdeal.τ Cert.ReferenceIdeal.sig) i
        = Cert.KernelIdeal.Gen.V m c Cert.KernelIdeal.main_v79 i := by
  have hV' : V' (Cert.ReferenceIdeal.main_arg1 : DevRef Cert.ReferenceIdeal.τ Cert.ReferenceIdeal.sig) = m ((c.tc : Thread Cert.KernelIdeal.nD Cert.KernelIdeal.τ).loc Cert.KernelIdeal.main_arg1) := funext hV
  have h : after (Cert.ReferenceIdeal.RefRun.ops (F := Ideal)) V' (Cert.ReferenceIdeal.main_v82 : DevRef Cert.ReferenceIdeal.τ Cert.ReferenceIdeal.sig) = Cert.KernelIdeal.Gen.V m c Cert.KernelIdeal.main_v79 := by
    rw [Cert.ReferenceIdeal.RefRun.after_ops]
    simp only [Cert.ReferenceIdeal.RefRun.ops0, Cert.ReferenceIdeal.RefRun.ops1, Cert.ReferenceIdeal.RefRun.ops2]
    dsimp only [Cert.KernelIdeal.Gen.V]
    simp only [Cert.KernelIdeal.Gen.hostOps0, Cert.KernelIdeal.Gen.hostOps0_1, Cert.KernelIdeal.Gen.hostOps0_2, Cert.KernelIdeal.Gen.hostOps0_3,
      Cert.KernelIdeal.Gen.hostOps0_4, Cert.KernelIdeal.Gen.hostOps0_5, Cert.KernelIdeal.Gen.hostOps0_6, Cert.KernelIdeal.Gen.hostOps0_7,
      Cert.KernelIdeal.Gen.hostOps0_8, List.flatten_cons, List.flatten_nil, List.append_nil, List.cons_append, List.nil_append]
    host_chain_results
    rw [hV', lit0_same]
    rfl
  exact fun i => congrFun h i

set_option maxRecDepth 65536 in
set_option maxHeartbeats 4000000 in
/-- The second layer's matrix: the same composed term of the weights in both programs. -/
theorem layer1_same (m : (ℓ : Loc Cert.KernelIdeal.nD Cert.KernelIdeal.τ Cert.KernelIdeal.sig) → Buf (Elt Ideal) ℓ) (c : Dev 1)
    (V' : Valuation Cert.ReferenceIdeal.τ Cert.ReferenceIdeal.sig (Elt Ideal))
    (hV : ∀ i : (⟨2, ![2, 4]⟩ : Shape).Idx,
      V' (Cert.ReferenceIdeal.main_arg1 : DevRef Cert.ReferenceIdeal.τ Cert.ReferenceIdeal.sig) i = m ((c.tc : Thread Cert.KernelIdeal.nD Cert.KernelIdeal.τ).loc Cert.KernelIdeal.main_arg1) i) :
    ∀ i : (⟨2, ![16, 16]⟩ : Shape).Idx,
      after (Cert.ReferenceIdeal.RefRun.ops (F := Ideal)) V' (Cert.ReferenceIdeal.main_v160 : DevRef Cert.ReferenceIdeal.τ Cert.ReferenceIdeal.sig) i
        = Cert.KernelIdeal.Gen.V m c Cert.KernelIdeal.main_v155 i := by
  have hV' : V' (Cert.ReferenceIdeal.main_arg1 : DevRef Cert.ReferenceIdeal.τ Cert.ReferenceIdeal.sig) = m ((c.tc : Thread Cert.KernelIdeal.nD Cert.KernelIdeal.τ).loc Cert.KernelIdeal.main_arg1) := funext hV
  have h : after (Cert.ReferenceIdeal.RefRun.ops (F := Ideal)) V' (Cert.ReferenceIdeal.main_v160 : DevRef Cert.ReferenceIdeal.τ Cert.ReferenceIdeal.sig) = Cert.KernelIdeal.Gen.V m c Cert.KernelIdeal.main_v155 := by
    rw [Cert.ReferenceIdeal.RefRun.after_ops]
    simp only [Cert.ReferenceIdeal.RefRun.ops0, Cert.ReferenceIdeal.RefRun.ops1, Cert.ReferenceIdeal.RefRun.ops2]
    dsimp only [Cert.KernelIdeal.Gen.V]
    simp only [Cert.KernelIdeal.Gen.hostOps0, Cert.KernelIdeal.Gen.hostOps0_1, Cert.KernelIdeal.Gen.hostOps0_2, Cert.KernelIdeal.Gen.hostOps0_3,
      Cert.KernelIdeal.Gen.hostOps0_4, Cert.KernelIdeal.Gen.hostOps0_5, Cert.KernelIdeal.Gen.hostOps0_6, Cert.KernelIdeal.Gen.hostOps0_7,
      Cert.KernelIdeal.Gen.hostOps0_8, List.flatten_cons, List.flatten_nil, List.append_nil, List.cons_append, List.nil_append]
    host_chain_results
    rw [hV', lit0_same]
    rfl
  exact fun i => congrFun h i

end Cert.HostSame

end
-- ==== Proof.lean ====
/-
  The certificate: the kernel (normalise each row of x by the reciprocal square root of its sum of squares, multiply by
  ONE 16×16 matrix — the product of the two layers' transposed matrices, formed on the host —, square, contract with
  the table of signs) against the reference (divide each row by its norm, multiply by the two transposed layer
  matrices in turn, square, contract with the same table), at the extended reals, under the precondition that every
  input is finite and no row of x is the zero vector.

  Frames: the two kernel programs' frames are the generated frame proofs; the reference's is its run, written as the
  list of its host operations, with the result dropped.  The idealization rewrote nothing, so `preserves` is `True`.
  Algebraic: the kernel's result array after its run is named by the generated blockwise value leg; the reference's
  result buffer after its run is the fold of its operations; the two are equal entry by entry (`Cert.Bridge`): the
  kernel's one matrix is the product of the transposed layer matrices, both host chains compute the same layer
  matrices from the same weights, these are real because the weights are, each row is real with a positive sum of
  squares, and then x·rsqrt(∑x²) = x/√(∑x²) and s·(A·B) = (s·A)·B.
-/
import proofs.«133033_j23373212024916_1_alg».proof.Defs
import proofs.«133033_j23373212024916_1_alg».proof.Proof.Gen.Kernel
import proofs.«133033_j23373212024916_1_alg».proof.Proof.Gen.Kernel.Skeleton
import proofs.«133033_j23373212024916_1_alg».proof.Proof.Gen.Kernel.Launch
import proofs.«133033_j23373212024916_1_alg».proof.Proof.Gen.Kernel.Points
import proofs.«133033_j23373212024916_1_alg».proof.Proof.Gen.Kernel.Frame
import proofs.«133033_j23373212024916_1_alg».proof.Proof.Gen.KernelIdeal
import proofs.«133033_j23373212024916_1_alg».proof.Proof.Gen.KernelIdeal.Skeleton
import proofs.«133033_j23373212024916_1_alg».proof.Proof.Gen.KernelIdeal.Launch
import proofs.«133033_j23373212024916_1_alg».proof.Proof.Gen.KernelIdeal.Points
import proofs.«133033_j23373212024916_1_alg».proof.Proof.Gen.KernelIdeal.Frame
import proofs.«133033_j23373212024916_1_alg».proof.Proof.Gen.KernelIdeal.Value
import proofs.«133033_j23373212024916_1_alg».proof.Proof.Gen.ReferenceIdeal
import proofs.«133033_j23373212024916_1_alg».proof.Proof.Gen.Pre_finite_inputs
import proofs.«133033_j23373212024916_1_alg».proof.Proof.RefRun
import proofs.«133033_j23373212024916_1_alg».proof.Proof.RefStages
import proofs.«133033_j23373212024916_1_alg».proof.Proof.Bridge
import proofs.«133033_j23373212024916_1_alg».proof.Proof.PreDecode
import proofs.«133033_j23373212024916_1_alg».proof.Proof.HostKernel
import proofs.«133033_j23373212024916_1_alg».proof.Proof.HostKernelReal
import proofs.«133033_j23373212024916_1_alg».proof.Proof.HostSame
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame: its run leaves every buffer at the fold of its operations, and no operation writes an
    argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefRun.stage_main_arg0 _),
      (h c Cert.ReferenceIdeal.main_arg1).trans (Cert.ReferenceIdeal.RefRun.stage_main_arg1 _)⟩)
    (Cert.ReferenceIdeal.RefRun.run_all (F := Ideal) m ρ)

theorem preserves : Cert.preserves_Kernel_KernelIdeal := trivial

/-- The two idealized programs end with the same result.  The kernel's result array after its run is the one the
    blockwise value leg names; the reference's result buffer after its run is the fold of its operations at that
    buffer; entry by entry the two are equal (`Cert.Bridge.result_eq_of`), the precondition giving a real input with
    positive row sums of squares and real weights, the agreement of the two memories on the arguments giving the
    same input and the same weights. -/
theorem algebraic : Cert.algebraic_KernelIdeal_ReferenceIdeal := by
  intro m ρ m' ρ' hpre hagree
  refine ⟨fun c => (Cert.KernelIdeal.Gen.dats m 0 c).arrAt 3 Cert.KernelIdeal.cfg0.N,
    Cert.KernelIdeal.Value.run_blocks m ρ, ?_⟩
  refine (θ_run Cert.ReferenceIdeal.defs _ _).mono (fun r h c =>
    ⟨?_, (h c Cert.ReferenceIdeal.main_arg0).trans (Cert.ReferenceIdeal.RefRun.stage_main_arg0 _),
      (h c Cert.ReferenceIdeal.main_arg1).trans (Cert.ReferenceIdeal.RefRun.stage_main_arg1 _)⟩)
    (Cert.ReferenceIdeal.RefRun.run_all (F := Ideal) m' ρ')
  rw [h c Cert.ReferenceIdeal.main_v164]
  obtain ⟨hx, hw, hpos⟩ := Cert.PreDecode.decode _ _ (hpre c)
  have eV0 := Cert.KernelIdeal.Gen.V_main_arg0 m c
  refine funext fun idx => ?_
  exact Cert.Bridge.result_eq_of m (launchContents m' c) c _ _ _ _ _ rfl rfl rfl _ _ _ _ _ rfl rfl rfl rfl rfl
    (fun i => by rw [eV0]; exact hx i) (fun p => by rw [eV0]; exact hpos p)
    (Cert.HostChain.V_main_v158 m c) (Cert.HostChain.layer0_real m c hw) (Cert.HostChain.layer1_real m c hw)
    (fun i => by rw [eV0]; exact congrFun (hagree c).1 i)
    (Cert.HostSame.layer0_same m c _ (fun i => congrFun (hagree c).2 i))
    (Cert.HostSame.layer1_same m c _ (fun i => congrFun (hagree c).2 i))
    (Cert.HostSame.table_same m c _) idx

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
